-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v54)) (v2 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_v55) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x172 : Shape := ⟨2, ![200000, 172]⟩
abbrev S500000x172 : Shape := ⟨2, ![500000, 172]⟩
abbrev S8192 : Shape := ⟨1, ![8192]⟩
abbrev S8192x32 : Shape := ⟨2, ![8192, 32]⟩
abbrev S100 : Shape := ⟨1, ![100]⟩
abbrev S616x172 : Shape := ⟨2, ![616, 172]⟩
abbrev S172 : Shape := ⟨1, ![172]⟩
abbrev S_ : Shape := ⟨0, ![]⟩

class Facts : Prop where
  bcast_S_S200000x172 : S_.BroadcastsInDim S200000x172 (![] : Fin 0 → Fin S200000x172.rank)
  reducesTo_S200000x172_S_d0_1 : S200000x172.ReducesTo [0, 1] S_
  h_S_ : 0 < S_.numel
  bcast_S_S500000x172 : S_.BroadcastsInDim S500000x172 (![] : Fin 0 → Fin S500000x172.rank)
  reducesTo_S500000x172_S_d0_1 : S500000x172.ReducesTo [0, 1] S_
  bcast_S_S8192 : S_.BroadcastsInDim S8192 (![] : Fin 0 → Fin S8192.rank)
  reducesTo_S8192_S_d0 : S8192.ReducesTo [0] S_
  bcast_S_S8192x32 : S_.BroadcastsInDim S8192x32 (![] : Fin 0 → Fin S8192x32.rank)
  reducesTo_S8192x32_S_d0_1 : S8192x32.ReducesTo [0, 1] S_
  bcast_S_S100 : S_.BroadcastsInDim S100 (![] : Fin 0 → Fin S100.rank)
  reducesTo_S100_S_d0 : S100.ReducesTo [0] S_
  bcast_S_S616x172 : S_.BroadcastsInDim S616x172 (![] : Fin 0 → Fin S616x172.rank)
  reducesTo_S616x172_S_d0_1 : S616x172.ReducesTo [0, 1] S_
  bcast_S_S172 : S_.BroadcastsInDim S172 (![] : Fin 0 → Fin S172.rank)
  reducesTo_S172_S_d0 : S172.ReducesTo [0] S_

variable [Facts]

def fn_part2 {F : FTy → Type} [FloatOps F] (main_arg13 : FVec F S616x172 .f32) (main_arg14 : FVec F S172 .f32) (main_v33 : IVec S_ 1) : IVec S_ 1 :=
  let main_v34 : FVec F S616x172 .f32 := Host.absf main_arg13
  let main_cst_12 : FVec F S_ .f32 := constant S_ .f32 0x7F800000#32
  let main_v35 : FVec F S616x172 .f32 := broadcastInDim S616x172 ![] bcast_S_S616x172 main_cst_12
  let main_v36 : IVec S616x172 1 := cmpf .olt main_v34 main_v35
  let main_c_13 : IVec S_ 1 := constantI S_ 1 1#1
  let main_v37 : IVec S_ 1 := (fun x v => Host.reduce IntOp.andi x v reducesTo_S616x172_S_d0_1 h_S_) main_v36 main_c_13
  let main_v38 : IVec S_ 1 := andi main_v33 main_v37
  let main_v39 : FVec F S172 .f32 := Host.absf main_arg14
  let main_cst_14 : FVec F S_ .f32 := constant S_ .f32 0x7F800000#32
  let main_v40 : FVec F S172 .f32 := broadcastInDim S172 ![] bcast_S_S172 main_cst_14
  let main_v41 : IVec S172 1 := cmpf .olt main_v39 main_v40
  let main_c_15 : IVec S_ 1 := constantI S_ 1 1#1
  let main_v42 : IVec S_ 1 := (fun x v => Host.reduce IntOp.andi x v reducesTo_S172_S_d0 h_S_) main_v41 main_c_15
  let main_v43 : IVec S_ 1 := andi main_v38 main_v42
  main_v43

def fn_part1 {F : FTy → Type} [FloatOps F] (main_arg10 : FVec F S8192x32 .f32) (main_arg11 : FVec F S100 .f32) (main_arg12 : FVec F S100 .f32) (main_arg13 : FVec F S616x172 .f32) (main_arg14 : FVec F S172 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S8192x32 .f32 := Host.absf main_arg10
  let main_cst_6 : FVec F S_ .f32 := constant S_ .f32 0x7F800000#32
  let main_v20 : FVec F S8192x32 .f32 := broadcastInDim S8192x32 ![] bcast_S_S8192x32 main_cst_6
  let main_v21 : IVec S8192x32 1 := cmpf .olt main_v19 main_v20
  let main_c_7 : IVec S_ 1 := constantI S_ 1 1#1
  let main_v22 : IVec S_ 1 := (fun x v => Host.reduce IntOp.andi x v reducesTo_S8192x32_S_d0_1 h_S_) main_v21 main_c_7
  let main_v23 : IVec S_ 1 := andi main_v18 main_v22
  let main_v24 : FVec F S100 .f32 := Host.absf main_arg11
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100 .f32 := Host.absf main_arg12
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg13 main_arg14 main_v33

def fn {F : FTy → Type} [FloatOps F] (main_arg0 : FVec F S200000x172 .f32) (main_arg1 : FVec F S500000x172 .f32) (main_arg2 : IVec S8192 32) (main_arg3 : IVec S8192 32) (main_arg4 : FVec F S8192 .f32) (main_arg5 : IVec S8192x32 32) (main_arg6 : IVec S8192x32 32) (main_arg7 : FVec F S8192x32 .f32) (main_arg8 : IVec S8192x32 32) (main_arg9 : IVec S8192x32 32) (main_arg10 : FVec F S8192x32 .f32) (main_arg11 : FVec F S100 .f32) (main_arg12 : FVec F S100 .f32) (main_arg13 : FVec F S616x172 .f32) (main_arg14 : FVec F S172 .f32) : IVec S_ 1 :=
  let main_v0 : FVec F S200000x172 .f32 := Host.absf main_arg0
  let main_cst : FVec F S_ .f32 := constant S_ .f32 0x7F800000#32
  let main_v1 : FVec F S200000x172 .f32 := broadcastInDim S200000x172 ![] bcast_S_S200000x172 main_cst
  let main_v2 : IVec S200000x172 1 := cmpf .olt main_v0 main_v1
  let main_c : IVec S_ 1 := constantI S_ 1 1#1
  let main_v3 : IVec S_ 1 := (fun x v => Host.reduce IntOp.andi x v reducesTo_S200000x172_S_d0_1 h_S_) main_v2 main_c
  let main_v4 : FVec F S500000x172 .f32 := Host.absf main_arg1
  let main_cst_0 : FVec F S_ .f32 := constant S_ .f32 0x7F800000#32
  let main_v5 : FVec F S500000x172 .f32 := broadcastInDim S500000x172 ![] bcast_S_S500000x172 main_cst_0
  let main_v6 : IVec S500000x172 1 := cmpf .olt main_v4 main_v5
  let main_c_1 : IVec S_ 1 := constantI S_ 1 1#1
  let main_v7 : IVec S_ 1 := (fun x v => Host.reduce IntOp.andi x v reducesTo_S500000x172_S_d0_1 h_S_) main_v6 main_c_1
  let main_v8 : IVec S_ 1 := andi main_v3 main_v7
  let main_v9 : FVec F S8192 .f32 := Host.absf main_arg4
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x32 .f32 := Host.absf main_arg7
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg10 main_arg11 main_arg12 main_arg13 main_arg14 main_v13 main_v16
-- ==== Kernel.lean ====
abbrev S200000x172 : Shape := ⟨2, ![200000, 172]⟩
abbrev S500000x172 : Shape := ⟨2, ![500000, 172]⟩
abbrev S8192 : Shape := ⟨1, ![8192]⟩
abbrev S8192x32 : Shape := ⟨2, ![8192, 32]⟩
abbrev S100 : Shape := ⟨1, ![100]⟩
abbrev S616x172 : Shape := ⟨2, ![616, 172]⟩
abbrev S172 : Shape := ⟨1, ![172]⟩
abbrev S_ : Shape := ⟨0, ![]⟩
abbrev S8192x32x1 : Shape := ⟨3, ![8192, 32, 1]⟩
abbrev S8192x32x172 : Shape := ⟨3, ![8192, 32, 172]⟩
abbrev S8192x1 : Shape := ⟨2, ![8192, 1]⟩
abbrev S8192x172 : Shape := ⟨2, ![8192, 172]⟩
abbrev S1x100 : Shape := ⟨2, ![1, 100]⟩
abbrev S172x172 : Shape := ⟨2, ![172, 172]⟩
abbrev S100x172 : Shape := ⟨2, ![100, 172]⟩
abbrev S1x172 : Shape := ⟨2, ![1, 172]⟩
abbrev S128x32x172 : Shape := ⟨3, ![128, 32, 172]⟩
abbrev S128x32 : Shape := ⟨2, ![128, 32]⟩
abbrev S128x1 : Shape := ⟨2, ![128, 1]⟩
abbrev S128x172 : Shape := ⟨2, ![128, 172]⟩
abbrev S128x32x1 : Shape := ⟨3, ![128, 32, 1]⟩
abbrev S1x1x100 : Shape := ⟨3, ![1, 1, 100]⟩
abbrev S128x32x100 : Shape := ⟨3, ![128, 32, 100]⟩
abbrev S128x100 : Shape := ⟨2, ![128, 100]⟩

abbrev nBuf : Space → Nat
  | .hbm => 84
  | .vmem => 42
  | .smem => 0
  | _ => 0

abbrev bufTy : (tb : Table) → Fin (tcTables nBuf tb) → BufTy
  | .hbm, ⟨0, _⟩ => ⟨S200000x172, .f32⟩
  | .hbm, ⟨1, _⟩ => ⟨S500000x172, .f32⟩
  | .hbm, ⟨2, _⟩ => ⟨S8192, .i32⟩
  | .hbm, ⟨3, _⟩ => ⟨S8192, .i32⟩
  | .hbm, ⟨4, _⟩ => ⟨S8192, .f32⟩
  | .hbm, ⟨5, _⟩ => ⟨S8192x32, .i32⟩
  | .hbm, ⟨6, _⟩ => ⟨S8192x32, .i32⟩
  | .hbm, ⟨7, _⟩ => ⟨S8192x32, .f32⟩
  | .hbm, ⟨8, _⟩ => ⟨S8192x32, .i32⟩
  | .hbm, ⟨9, _⟩ => ⟨S8192x32, .i32⟩
  | .hbm, ⟨10, _⟩ => ⟨S8192x32, .f32⟩
  | .hbm, ⟨11, _⟩ => ⟨S100, .f32⟩
  | .hbm, ⟨12, _⟩ => ⟨S100, .f32⟩
  | .hbm, ⟨13, _⟩ => ⟨S616x172, .f32⟩
  | .hbm, ⟨14, _⟩ => ⟨S172, .f32⟩
  | .hbm, ⟨15, _⟩ => ⟨S200000x172, .bf16⟩
  | .hbm, ⟨16, _⟩ => ⟨S500000x172, .bf16⟩
  | .hbm, ⟨17, _⟩ => ⟨S_, .i32⟩
  | .hbm, ⟨18, _⟩ => ⟨S8192x32, .i32⟩
  | .hbm, ⟨19, _⟩ => ⟨S8192x32, .i1⟩
  | .hbm, ⟨20, _⟩ => ⟨S_, .i32⟩
  | .hbm, ⟨21, _⟩ => ⟨S8192x32, .i32⟩
  | .hbm, ⟨22, _⟩ => ⟨S8192x32, .i32⟩
  | .hbm, ⟨23, _⟩ => ⟨S8192x32, .i32⟩
  | .hbm, ⟨24, _⟩ => ⟨S8192x32x1, .i32⟩
  | .hbm, ⟨25, _⟩ => ⟨S8192x32x172, .bf16⟩
  | .hbm, ⟨26, _⟩ => ⟨S_, .i32⟩
  | .hbm, ⟨27, _⟩ => ⟨S8192x32, .i32⟩
  | .hbm, ⟨28, _⟩ => ⟨S8192x32, .i1⟩
  | .hbm, ⟨29, _⟩ => ⟨S_, .i32⟩
  | .hbm, ⟨30, _⟩ => ⟨S8192x32, .i32⟩
  | .hbm, ⟨31, _⟩ => ⟨S8192x32, .i32⟩
  | .hbm, ⟨32, _⟩ => ⟨S8192x32, .i32⟩
  | .hbm, ⟨33, _⟩ => ⟨S8192x32x1, .i32⟩
  | .hbm, ⟨34, _⟩ => ⟨S8192x32x172, .bf16⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S8192x172, .bf16⟩
  | .hbm, ⟨44, _⟩ => ⟨S_, .i32⟩
  | .hbm, ⟨45, _⟩ => ⟨S8192x32, .i32⟩
  | .hbm, ⟨46, _⟩ => ⟨S8192x32, .i1⟩
  | .hbm, ⟨47, _⟩ => ⟨S_, .i32⟩
  | .hbm, ⟨48, _⟩ => ⟨S8192x32, .i32⟩
  | .hbm, ⟨49, _⟩ => ⟨S8192x32, .i32⟩
  | .hbm, ⟨50, _⟩ => ⟨S8192x32, .i32⟩
  | .hbm, ⟨51, _⟩ => ⟨S8192x32x1, .i32⟩
  | .hbm, ⟨52, _⟩ => ⟨S8192x32x172, .bf16⟩
  | .hbm, ⟨53, _⟩ => ⟨S_, .i32⟩
  | .hbm, ⟨54, _⟩ => ⟨S8192x32, .i32⟩
  | .hbm, ⟨55, _⟩ => ⟨S8192x32, .i1⟩
  | .hbm, ⟨56, _⟩ => ⟨S_, .i32⟩
  | .hbm, ⟨57, _⟩ => ⟨S8192x32, .i32⟩
  | .hbm, ⟨58, _⟩ => ⟨S8192x32, .i32⟩
  | .hbm, ⟨59, _⟩ => ⟨S8192x32, .i32⟩
  | .hbm, ⟨60, _⟩ => ⟨S8192x32x1, .i32⟩
  | .hbm, ⟨61, _⟩ => ⟨S8192x32x172, .bf16⟩
  | .hbm, ⟨62, _⟩ => ⟨S_, .i32⟩
  | .hbm, ⟨63, _⟩ => ⟨S8192, .i32⟩
  | .hbm, ⟨64, _⟩ => ⟨S8192, .i1⟩
  | .hbm, ⟨65, _⟩ => ⟨S_, .i32⟩
  | .hbm, ⟨66, _⟩ => ⟨S8192, .i32⟩
  | .hbm, ⟨67, _⟩ => ⟨S8192, .i32⟩
  | .hbm, ⟨68, _⟩ => ⟨S8192, .i32⟩
  | .hbm, ⟨69, _⟩ => ⟨S8192x1, .i32⟩
  | .hbm, ⟨70, _⟩ => ⟨S8192x172, .bf16⟩
  | .hbm, ⟨71, _⟩ => ⟨S1x100, .f32⟩
  | .hbm, ⟨72, _⟩ => ⟨S1x100, .f32⟩
  | .hbm, ⟨73, _⟩ => ⟨S616x172, .bf16⟩
  | .hbm, ⟨74, _⟩ => ⟨S172x172, .bf16⟩
  | .hbm, ⟨75, _⟩ => ⟨S172x172, .bf16⟩
  | .hbm, ⟨76, _⟩ => ⟨S172x172, .bf16⟩
  | .hbm, ⟨77, _⟩ => ⟨S100x172, .bf16⟩
  | .hbm, ⟨78, _⟩ => ⟨S1x172, .f32⟩
  | .hbm, ⟨79, _⟩ => ⟨S8192x1, .f32⟩
  | .hbm, ⟨80, _⟩ => ⟨S8192x172, .f32⟩
  | .hbm, ⟨81, _⟩ => ⟨S8192x172, .f32⟩
  | .hbm, ⟨82, _⟩ => ⟨S_, .f32⟩
  | .hbm, ⟨83, _⟩ => ⟨S8192x172, .f32⟩
  | .local _ .vmem, ⟨0, _⟩ => ⟨S128x32x172, .bf16⟩
  | .local _ .vmem, ⟨1, _⟩ => ⟨S128x32x172, .bf16⟩
  | .local _ .vmem, ⟨2, _⟩ => ⟨S128x32x172, .bf16⟩
  | .local _ .vmem, ⟨3, _⟩ => ⟨S128x32x172, .bf16⟩
  | .local _ .vmem, ⟨4, _⟩ => ⟨S128x32, .i32⟩
  | .local _ .vmem, ⟨5, _⟩ => ⟨S128x32, .i32⟩
  | .local _ .vmem, ⟨6, _⟩ => ⟨S128x32, .f32⟩
  | .local _ .vmem, ⟨7, _⟩ => ⟨S128x32, .f32⟩
  | .local _ .vmem, ⟨8, _⟩ => ⟨S128x1, .f32⟩
  | .local _ .vmem, ⟨9, _⟩ => ⟨S128x1, .f32⟩
  | .local _ .vmem, ⟨10, _⟩ => ⟨S128x172, .bf16⟩
  | .local _ .vmem, ⟨11, _⟩ => ⟨S128x172, .bf16⟩
  | .local _ .vmem, ⟨12, _⟩ => ⟨S1x100, .f32⟩
  | .local _ .vmem, ⟨13, _⟩ => ⟨S1x100, .f32⟩
  | .local _ .vmem, ⟨14, _⟩ => ⟨S172x172, .bf16⟩
  | .local _ .vmem, ⟨15, _⟩ => ⟨S172x172, .bf16⟩
  | .local _ .vmem, ⟨16, _⟩ => ⟨S172x172, .bf16⟩
  | .local _ .vmem, ⟨17, _⟩ => ⟨S100x172, .bf16⟩
  | .local _ .vmem, ⟨18, _⟩ => ⟨S1x172, .f32⟩
  | .local _ .vmem, ⟨19, _⟩ => ⟨S128x172, .f32⟩
  | .local _ .vmem, ⟨20, _⟩ => ⟨S128x172, .f32⟩
  | .local _ .vmem, ⟨21, _⟩ => ⟨S128x32x172, .bf16⟩
  | .local _ .vmem, ⟨22, _⟩ => ⟨S128x32x172, .bf16⟩
  | .local _ .vmem, ⟨23, _⟩ => ⟨S128x32x172, .bf16⟩
  | .local _ .vmem, ⟨24, _⟩ => ⟨S128x32x172, .bf16⟩
  | .local _ .vmem, ⟨25, _⟩ => ⟨S128x32, .i32⟩
  | .local _ .vmem, ⟨26, _⟩ => ⟨S128x32, .i32⟩
  | .local _ .vmem, ⟨27, _⟩ => ⟨S128x32, .f32⟩
  | .local _ .vmem, ⟨28, _⟩ => ⟨S128x32, .f32⟩
  | .local _ .vmem, ⟨29, _⟩ => ⟨S128x1, .f32⟩
  | .local _ .vmem, ⟨30, _⟩ => ⟨S128x1, .f32⟩
  | .local _ .vmem, ⟨31, _⟩ => ⟨S128x172, .bf16⟩
  | .local _ .vmem, ⟨32, _⟩ => ⟨S128x172, .bf16⟩
  | .local _ .vmem, ⟨33, _⟩ => ⟨S1x100, .f32⟩
  | .local _ .vmem, ⟨34, _⟩ => ⟨S1x100, .f32⟩
  | .local _ .vmem, ⟨35, _⟩ => ⟨S172x172, .bf16⟩
  | .local _ .vmem, ⟨36, _⟩ => ⟨S172x172, .bf16⟩
  | .local _ .vmem, ⟨37, _⟩ => ⟨S172x172, .bf16⟩
  | .local _ .vmem, ⟨38, _⟩ => ⟨S100x172, .bf16⟩
  | .local _ .vmem, ⟨39, _⟩ => ⟨S1x172, .f32⟩
  | .local _ .vmem, ⟨40, _⟩ => ⟨S128x172, .f32⟩
  | .local _ .vmem, ⟨41, _⟩ => ⟨S128x172, .f32⟩
  | _, _ => ⟨S200000x172, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst : Ref sig .tc := ⟨.hbm, 82, rfl⟩
abbrev main_v55 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc1_stg4_0 : Ref sig .tc := ⟨.vmem, 29, rfl⟩
abbrev cc1_stg4_1 : Ref sig .tc := ⟨.vmem, 30, rfl⟩
abbrev cc1_stg5_0 : Ref sig .tc := ⟨.vmem, 31, rfl⟩
abbrev cc1_stg5_1 : Ref sig .tc := ⟨.vmem, 32, rfl⟩
abbrev cc1_stg6_0 : Ref sig .tc := ⟨.vmem, 33, rfl⟩
abbrev cc1_stg7_0 : Ref sig .tc := ⟨.vmem, 34, rfl⟩
abbrev cc1_stg8_0 : Ref sig .tc := ⟨.vmem, 35, rfl⟩
abbrev cc1_stg9_0 : Ref sig .tc := ⟨.vmem, 36, rfl⟩
abbrev cc1_stg10_0 : Ref sig .tc := ⟨.vmem, 37, rfl⟩
abbrev cc1_stg11_0 : Ref sig .tc := ⟨.vmem, 38, rfl⟩
abbrev cc1_stg12_0 : Ref sig .tc := ⟨.vmem, 39, rfl⟩
abbrev cc1_stg13_0 : Ref sig .tc := ⟨.vmem, 40, rfl⟩
abbrev cc1_stg13_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28
abbrev cc1_sem4_0 : DmaSem sig := 29
abbrev cc1_sem4_1 : DmaSem sig := 30
abbrev cc1_sem5_0 : DmaSem sig := 31
abbrev cc1_sem5_1 : DmaSem sig := 32
abbrev cc1_sem6_0 : DmaSem sig := 33
abbrev cc1_sem7_0 : DmaSem sig := 34
abbrev cc1_sem8_0 : DmaSem sig := 35
abbrev cc1_sem9_0 : DmaSem sig := 36
abbrev cc1_sem10_0 : DmaSem sig := 37
abbrev cc1_sem11_0 : DmaSem sig := 38
abbrev cc1_sem12_0 : DmaSem sig := 39
abbrev cc1_sem13_0 : DmaSem sig := 40
abbrev cc1_sem13_1 : DmaSem sig := 41

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x172 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x172 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x172 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S172x172 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S172x172 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S172x172 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S100x172 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x172 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x172 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x32x172 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x32x172 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x32 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x172 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x100 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x100 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S172x172 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S172x172 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S172x172 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S100x172 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x172 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S128x172 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  bitsLt_bf16_f32 : FTy.bits .bf16 < FTy.bits .f32
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  bcast_S_S8192 : S_.BroadcastsInDim S8192 (![] : Fin 0 → Fin S8192.rank)
  bcast_S8192_S8192x1_0 : S8192.BroadcastsInDim S8192x1 (![0] : Fin 1 → Fin S8192x1.rank)
  shapeCasts_S100_S1x100 : S100.ShapeCasts S1x100
  slices_S616x172_S172x172_0_0 : S616x172.Slices ![0, 0] S172x172
  slices_S616x172_S172x172_172_0 : S616x172.Slices ![172, 0] S172x172
  slices_S616x172_S172x172_344_0 : S616x172.Slices ![344, 0] S172x172
  slices_S616x172_S100x172_516_0 : S616x172.Slices ![516, 0] S100x172
  shapeCasts_S172_S1x172 : S172.ShapeCasts S1x172
  shapeCasts_S8192_S8192x1 : S8192.ShapeCasts S8192x1
  inb_S128x32x172_S128x32x172_0_0_0 : ∀ a, (![0, 0, 0] : Fin 3 → Nat) a + S128x32x172.size a ≤ S128x32x172.size a
  h_S128x32x172 : 0 < S128x32x172.numel
  shapeCasts_S128x32x172_S128x32x172 : S128x32x172.ShapeCasts S128x32x172
  reduces_S128x32x172_S128x172 : S128x32x172.Reduces [1] S128x172
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x32_S128x32_0_0 : ∀ a, (![0, 0] : Fin 2 → Nat) a + S128x32.size a ≤ S128x32.size a
  h_S128x32 : 0 < S128x32.numel
  broadcasts_S128x1_S128x32 : S128x1.Broadcasts S128x32
  shapeCasts_S128x32_S128x32x1 : S128x32.ShapeCasts S128x32x1
  inb_S1x100_S1x100_0_0 : ∀ a, (![0, 0] : Fin 2 → Nat) a + S1x100.size a ≤ S1x100.size a
  h_S1x100 : 0 < S1x100.numel
  shapeCasts_S1x100_S1x100 : S1x100.ShapeCasts S1x100
  shapeCasts_S1x100_S1x1x100 : S1x100.ShapeCasts S1x1x100
  broadcasts_S128x32x1_S128x32x100 : S128x32x1.Broadcasts S128x32x100
  broadcasts_S1x1x100_S128x32x100 : S1x1x100.Broadcasts S128x32x100
  natLt_1_32 : 1 < 32
  reduces_S128x32x100_S128x100 : S128x32x100.Reduces [1] S128x100
  inb_S128x172_S128x172_0_0 : ∀ a, (![0, 0] : Fin 2 → Nat) a + S128x172.size a ≤ S128x172.size a
  h_S128x172 : 0 < S128x172.numel
  shapeCasts_S128x172_S128x172 : S128x172.ShapeCasts S128x172
  inb_S172x172_S172x172_0_0 : ∀ a, (![0, 0] : Fin 2 → Nat) a + S172x172.size a ≤ S172x172.size a
  h_S172x172 : 0 < S172x172.numel
  shapeCasts_S172x172_S172x172 : S172x172.ShapeCasts S172x172
  inb_S100x172_S100x172_0_0 : ∀ a, (![0, 0] : Fin 2 → Nat) a + S100x172.size a ≤ S100x172.size a
  h_S100x172 : 0 < S100x172.numel
  shapeCasts_S100x172_S100x172 : S100x172.ShapeCasts S100x172
  inb_S1x172_S1x172_0_0 : ∀ a, (![0, 0] : Fin 2 → Nat) a + S1x172.size a ≤ S1x172.size a
  h_S1x172 : 0 < S1x172.numel
  shapeCasts_S1x172_S1x172 : S1x172.ShapeCasts S1x172
  broadcasts_S1x172_S128x172 : S1x172.Broadcasts S128x172
  bcast_S_S8192x172 : S_.BroadcastsInDim S8192x172 (![] : Fin 0 → Fin S8192x172.rank)
  gather_S200000x172_S8192x32x1_S8192x32x172_2_0_n_n_0_2_1172_wf : GatherDims.WF S200000x172 S8192x32x1 S8192x32x172 [2] [0] [] [0] [] 2 ![1, 172]
  gather_S500000x172_S8192x32x1_S8192x32x172_2_0_n_n_0_2_1172_wf : GatherDims.WF S500000x172 S8192x32x1 S8192x32x172 [2] [0] [] [0] [] 2 ![1, 172]
  gather_S200000x172_S8192x1_S8192x172_1_0_n_n_0_1_1172_wf : GatherDims.WF S200000x172 S8192x1 S8192x172 [1] [0] [] [0] [] 1 ![1, 172]
  dot_S128x172_S172x172_S128x172_1_0_0_1_n_n_wf : DotDims.WF S128x172 S172x172 S128x172 [1] [0] [0] [1] [] []
  dot_S128x100_S100x172_S128x172_1_0_0_1_n_n_wf : DotDims.WF S128x100 S100x172 S128x172 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x172.size a ≤ S8192x32x172.size a
  hwx0_0 : ∀ i : grid0.Coords, EltTy.bits .bf16 = 32 ∨ (Rect.block (s := S8192x32x172) S128x32x172.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x172.size a ≤ S8192x32x172.size a
  hwx0_1 : ∀ i : grid0.Coords, EltTy.bits .bf16 = 32 ∨ (Rect.block (s := S8192x32x172) S128x32x172.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S8192x32.size a
  hwx0_2 : ∀ i : grid0.Coords, EltTy.bits .i32 = 32 ∨ (Rect.block (s := S8192x32) S128x32.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S8192x32.size a
  hwx0_3 : ∀ i : grid0.Coords, EltTy.bits .f32 = 32 ∨ (Rect.block (s := S8192x32) S128x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S8192x1.size a
  hwx0_4 : ∀ i : grid0.Coords, EltTy.bits .f32 = 32 ∨ (Rect.block (s := S8192x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x172.size a ≤ S8192x172.size a
  hwx0_5 : ∀ i : grid0.Coords, EltTy.bits .bf16 = 32 ∨ (Rect.block (s := S8192x172) S128x172.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x100.size a ≤ S1x100.size a
  hwx0_6 : ∀ i : grid0.Coords, EltTy.bits .f32 = 32 ∨ (Rect.block (s := S1x100) S1x100.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x100.size a ≤ S1x100.size a
  hwx0_7 : ∀ i : grid0.Coords, EltTy.bits .f32 = 32 ∨ (Rect.block (s := S1x100) S1x100.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S172x172.size a ≤ S172x172.size a
  hwx0_8 : ∀ i : grid0.Coords, EltTy.bits .bf16 = 32 ∨ (Rect.block (s := S172x172) S172x172.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S172x172.size a ≤ S172x172.size a
  hwx0_9 : ∀ i : grid0.Coords, EltTy.bits .bf16 = 32 ∨ (Rect.block (s := S172x172) S172x172.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S172x172.size a ≤ S172x172.size a
  hwx0_10 : ∀ i : grid0.Coords, EltTy.bits .bf16 = 32 ∨ (Rect.block (s := S172x172) S172x172.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S100x172.size a ≤ S100x172.size a
  hwx0_11 : ∀ i : grid0.Coords, EltTy.bits .bf16 = 32 ∨ (Rect.block (s := S100x172) S100x172.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x172.size a ≤ S1x172.size a
  hwx0_12 : ∀ i : grid0.Coords, EltTy.bits .f32 = 32 ∨ (Rect.block (s := S1x172) S1x172.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x172.size a ≤ S8192x172.size a
  hwx0_13 : ∀ i : grid0.Coords, EltTy.bits .f32 = 32 ∨ (Rect.block (s := S8192x172) S128x172.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x32x172.size a ≤ S8192x32x172.size a
  hwx1_0 : ∀ i : grid1.Coords, EltTy.bits .bf16 = 32 ∨ (Rect.block (s := S8192x32x172) S128x32x172.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x32x172.size a ≤ S8192x32x172.size a
  hwx1_1 : ∀ i : grid1.Coords, EltTy.bits .bf16 = 32 ∨ (Rect.block (s := S8192x32x172) S128x32x172.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S8192x32.size a
  hwx1_2 : ∀ i : grid1.Coords, EltTy.bits .i32 = 32 ∨ (Rect.block (s := S8192x32) S128x32.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x32.size a ≤ S8192x32.size a
  hwx1_3 : ∀ i : grid1.Coords, EltTy.bits .f32 = 32 ∨ (Rect.block (s := S8192x32) S128x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S8192x1.size a
  hwx1_4 : ∀ i : grid1.Coords, EltTy.bits .f32 = 32 ∨ (Rect.block (s := S8192x1) S128x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x172.size a ≤ S8192x172.size a
  hwx1_5 : ∀ i : grid1.Coords, EltTy.bits .bf16 = 32 ∨ (Rect.block (s := S8192x172) S128x172.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x100.size a ≤ S1x100.size a
  hwx1_6 : ∀ i : grid1.Coords, EltTy.bits .f32 = 32 ∨ (Rect.block (s := S1x100) S1x100.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x100.size a ≤ S1x100.size a
  hwx1_7 : ∀ i : grid1.Coords, EltTy.bits .f32 = 32 ∨ (Rect.block (s := S1x100) S1x100.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S172x172.size a ≤ S172x172.size a
  hwx1_8 : ∀ i : grid1.Coords, EltTy.bits .bf16 = 32 ∨ (Rect.block (s := S172x172) S172x172.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S172x172.size a ≤ S172x172.size a
  hwx1_9 : ∀ i : grid1.Coords, EltTy.bits .bf16 = 32 ∨ (Rect.block (s := S172x172) S172x172.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S172x172.size a ≤ S172x172.size a
  hwx1_10 : ∀ i : grid1.Coords, EltTy.bits .bf16 = 32 ∨ (Rect.block (s := S172x172) S172x172.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S100x172.size a ≤ S100x172.size a
  hwx1_11 : ∀ i : grid1.Coords, EltTy.bits .bf16 = 32 ∨ (Rect.block (s := S100x172) S100x172.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x172.size a ≤ S1x172.size a
  hwx1_12 : ∀ i : grid1.Coords, EltTy.bits .f32 = 32 ∨ (Rect.block (s := S1x172) S1x172.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S128x172.size a ≤ S8192x172.size a
  hwx1_13 : ∀ i : grid1.Coords, EltTy.bits .f32 = 32 ∨ (Rect.block (s := S8192x172) S128x172.size (cc1_transform_13 i) (hinb1_13 i)).WholeWords (EltTy.packing .f32)

variable [Facts₀]

def gather_S200000x172_S8192x32x1_S8192x32x172_2_0_n_n_0_2_1172 : GatherDims S200000x172 S8192x32x1 S8192x32x172 where
  offsetDims := [2]
  collapsedSliceDims := [0]
  operandBatchingDims := []
  startIndicesBatchingDims := []
  startIndexMap := [0]
  indexVectorDim := 2
  sliceSizes := ![1, 172]
  wf := gather_S200000x172_S8192x32x1_S8192x32x172_2_0_n_n_0_2_1172_wf
def gather_S500000x172_S8192x32x1_S8192x32x172_2_0_n_n_0_2_1172 : GatherDims S500000x172 S8192x32x1 S8192x32x172 where
  offsetDims := [2]
  collapsedSliceDims := [0]
  operandBatchingDims := []
  startIndicesBatchingDims := []
  startIndexMap := [0]
  indexVectorDim := 2
  sliceSizes := ![1, 172]
  wf := gather_S500000x172_S8192x32x1_S8192x32x172_2_0_n_n_0_2_1172_wf
def gather_S200000x172_S8192x1_S8192x172_1_0_n_n_0_1_1172 : GatherDims S200000x172 S8192x1 S8192x172 where
  offsetDims := [1]
  collapsedSliceDims := [0]
  operandBatchingDims := []
  startIndicesBatchingDims := []
  startIndexMap := [0]
  indexVectorDim := 1
  sliceSizes := ![1, 172]
  wf := gather_S200000x172_S8192x1_S8192x172_1_0_n_n_0_1_1172_wf
def dot_S128x172_S172x172_S128x172_1_0_0_1_n_n : DotDims S128x172 S172x172 S128x172 where
  lhsContracting := [1]
  rhsContracting := [0]
  lhsNonContracting := [0]
  rhsNonContracting := [1]
  lhsBatch := []
  rhsBatch := []
  wf := dot_S128x172_S172x172_S128x172_1_0_0_1_n_n_wf
def dot_S128x100_S100x172_S128x172_1_0_0_1_n_n : DotDims S128x100 S100x172 S128x172 where
  lhsContracting := [1]
  rhsContracting := [0]
  lhsNonContracting := [0]
  rhsNonContracting := [1]
  lhsBatch := []
  rhsBatch := []
  wf := dot_S128x100_S100x172_S128x172_1_0_0_1_n_n_wf

abbrev win0_0 : Pipeline.Window sig grid0 :=
  Pipeline.Window.ofSpec (Memref.whole main_v8) S128x32x172.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x32x172.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v52) S128x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x172.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S1x100.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v47) S172x172.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v48) S172x172.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v49) S172x172.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v50) S100x172.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v51) S1x172.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v53) S128x172.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v29) S128x32x172.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S128x32x172.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v52) S128x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43) S128x172.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x100.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S1x100.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S172x172.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v48) S172x172.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v49) S172x172.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v50) S100x172.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v51) S1x172.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v54) S128x172.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S200000x172 : Shape := ⟨2, ![200000, 172]⟩
abbrev S500000x172 : Shape := ⟨2, ![500000, 172]⟩
abbrev S8192 : Shape := ⟨1, ![8192]⟩
abbrev S8192x32 : Shape := ⟨2, ![8192, 32]⟩
abbrev S100 : Shape := ⟨1, ![100]⟩
abbrev S616x172 : Shape := ⟨2, ![616, 172]⟩
abbrev S172 : Shape := ⟨1, ![172]⟩
abbrev S_ : Shape := ⟨0, ![]⟩
abbrev S8192x32x1 : Shape := ⟨3, ![8192, 32, 1]⟩
abbrev S8192x32x172 : Shape := ⟨3, ![8192, 32, 172]⟩
abbrev S8192x1 : Shape := ⟨2, ![8192, 1]⟩
abbrev S1x1x100 : Shape := ⟨3, ![1, 1, 100]⟩
abbrev S8192x32x100 : Shape := ⟨3, ![8192, 32, 100]⟩
abbrev S8192x32x444 : Shape := ⟨3, ![8192, 32, 444]⟩
abbrev S8192x444 : Shape := ⟨2, ![8192, 444]⟩
abbrev S8192x172 : Shape := ⟨2, ![8192, 172]⟩
abbrev S8192x616 : Shape := ⟨2, ![8192, 616]⟩
abbrev S1x172 : Shape := ⟨2, ![1, 172]⟩

abbrev nBuf : Space → Nat
  | .hbm => 141
  | .vmem => 0
  | .smem => 0
  | _ => 0

abbrev hbmTy0_0 (i : Nat) : BufTy := match i % 128 with
  | 0 => ⟨S200000x172, .f32⟩
  | 1 => ⟨S500000x172, .f32⟩
  | 2 => ⟨S8192, .i32⟩
  | 3 => ⟨S8192, .i32⟩
  | 4 => ⟨S8192, .f32⟩
  | 5 => ⟨S8192x32, .i32⟩
  | 6 => ⟨S8192x32, .i32⟩
  | 7 => ⟨S8192x32, .f32⟩
  | 8 => ⟨S8192x32, .i32⟩
  | 9 => ⟨S8192x32, .i32⟩
  | 10 => ⟨S8192x32, .f32⟩
  | 11 => ⟨S100, .f32⟩
  | 12 => ⟨S100, .f32⟩
  | 13 => ⟨S616x172, .f32⟩
  | 14 => ⟨S172, .f32⟩
  | 15 => ⟨S_, .i32⟩
  | 16 => ⟨S8192x32, .i32⟩
  | 17 => ⟨S8192x32, .i1⟩
  | 18 => ⟨S_, .i32⟩
  | 19 => ⟨S8192x32, .i32⟩
  | 20 => ⟨S8192x32, .i32⟩
  | 21 => ⟨S8192x32, .i32⟩
  | 22 => ⟨S8192x32x1, .i32⟩
  | 23 => ⟨S8192x32x172, .f32⟩
  | 24 => ⟨S_, .i32⟩
  | 25 => ⟨S8192x32, .i32⟩
  | 26 => ⟨S8192x32, .i1⟩
  | 27 => ⟨S_, .i32⟩
  | 28 => ⟨S8192x32, .i32⟩
  | 29 => ⟨S8192x32, .i32⟩
  | 30 => ⟨S8192x32, .i32⟩
  | 31 => ⟨S8192x32x1, .i32⟩
  | 32 => ⟨S8192x32x172, .f32⟩
  | 33 => ⟨S8192x1, .f32⟩
  | 34 => ⟨S8192x32, .f32⟩
  | 35 => ⟨S8192x32, .f32⟩
  | 36 => ⟨S8192x32x1, .f32⟩
  | 37 => ⟨S1x1x100, .f32⟩
  | 38 => ⟨S8192x32x100, .f32⟩
  | 39 => ⟨S8192x32x100, .f32⟩
  | 40 => ⟨S8192x32x100, .f32⟩
  | 41 => ⟨S1x1x100, .f32⟩
  | 42 => ⟨S8192x32x100, .f32⟩
  | 43 => ⟨S8192x32x100, .f32⟩
  | 44 => ⟨S8192x32x100, .f32⟩
  | 45 => ⟨S_, .i32⟩
  | 46 => ⟨S8192x32, .i32⟩
  | 47 => ⟨S8192x32, .i1⟩
  | 48 => ⟨S8192x32x1, .i1⟩
  | 49 => ⟨S_, .f32⟩
  | 50 => ⟨S_, .f32⟩
  | 51 => ⟨S8192x32x100, .i1⟩
  | 52 => ⟨S8192x32x100, .f32⟩
  | 53 => ⟨S8192x32x100, .f32⟩
  | 54 => ⟨S8192x32x444, .f32⟩
  | 55 => ⟨S_, .f32⟩
  | 56 => ⟨S8192x444, .f32⟩
  | 57 => ⟨S_, .f32⟩
  | 58 => ⟨S8192x444, .f32⟩
  | 59 => ⟨S8192x444, .f32⟩
  | 60 => ⟨S_, .i32⟩
  | 61 => ⟨S8192, .i32⟩
  | 62 => ⟨S8192, .i1⟩
  | 63 => ⟨S_, .i32⟩
  | 64 => ⟨S8192, .i32⟩
  | 65 => ⟨S8192, .i32⟩
  | 66 => ⟨S8192, .i32⟩
  | 67 => ⟨S8192x1, .i32⟩
  | 68 => ⟨S8192x172, .f32⟩
  | 69 => ⟨S8192x616, .f32⟩
  | 70 => ⟨S8192x172, .f32⟩
  | 71 => ⟨S1x172, .f32⟩
  | 72 => ⟨S8192x172, .f32⟩
  | 73 => ⟨S8192x172, .f32⟩
  | 74 => ⟨S_, .f32⟩
  | 75 => ⟨S8192x172, .f32⟩
  | 76 => ⟨S8192x172, .f32⟩
  | 77 => ⟨S_, .i32⟩
  | 78 => ⟨S8192x32, .i32⟩
  | 79 => ⟨S8192x32, .i1⟩
  | 80 => ⟨S_, .i32⟩
  | 81 => ⟨S8192x32, .i32⟩
  | 82 => ⟨S8192x32, .i32⟩
  | 83 => ⟨S8192x32, .i32⟩
  | 84 => ⟨S8192x32x1, .i32⟩
  | 85 => ⟨S8192x32x172, .f32⟩
  | 86 => ⟨S_, .i32⟩
  | 87 => ⟨S8192x32, .i32⟩
  | 88 => ⟨S8192x32, .i1⟩
  | 89 => ⟨S_, .i32⟩
  | 90 => ⟨S8192x32, .i32⟩
  | 91 => ⟨S8192x32, .i32⟩
  | 92 => ⟨S8192x32, .i32⟩
  | 93 => ⟨S8192x32x1, .i32⟩
  | 94 => ⟨S8192x32x172, .f32⟩
  | 95 => ⟨S8192x1, .f32⟩
  | 96 => ⟨S8192x32, .f32⟩
  | 97 => ⟨S8192x32, .f32⟩
  | 98 => ⟨S8192x32x1, .f32⟩
  | 99 => ⟨S1x1x100, .f32⟩
  | 100 => ⟨S8192x32x100, .f32⟩
  | 101 => ⟨S8192x32x100, .f32⟩
  | 102 => ⟨S8192x32x100, .f32⟩
  | 103 => ⟨S1x1x100, .f32⟩
  | 104 => ⟨S8192x32x100, .f32⟩
  | 105 => ⟨S8192x32x100, .f32⟩
  | 106 => ⟨S8192x32x100, .f32⟩
  | 107 => ⟨S_, .i32⟩
  | 108 => ⟨S8192x32, .i32⟩
  | 109 => ⟨S8192x32, .i1⟩
  | 110 => ⟨S8192x32x1, .i1⟩
  | 111 => ⟨S_, .f32⟩
  | 112 => ⟨S_, .f32⟩
  | 113 => ⟨S8192x32x100, .i1⟩
  | 114 => ⟨S8192x32x100, .f32⟩
  | 115 => ⟨S8192x32x100, .f32⟩
  | 116 => ⟨S8192x32x444, .f32⟩
  | 117 => ⟨S_, .f32⟩
  | 118 => ⟨S8192x444, .f32⟩
  | 119 => ⟨S_, .f32⟩
  | 120 => ⟨S8192x444, .f32⟩
  | 121 => ⟨S8192x444, .f32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S200000x172, .f32⟩

abbrev hbmTy0_1 (i : Nat) : BufTy := match i % 128 with
  | 0 => ⟨S8192, .i32⟩
  | 1 => ⟨S8192x1, .i32⟩
  | 2 => ⟨S8192x172, .f32⟩
  | 3 => ⟨S8192x616, .f32⟩
  | 4 => ⟨S8192x172, .f32⟩
  | 5 => ⟨S1x172, .f32⟩
  | 6 => ⟨S8192x172, .f32⟩
  | 7 => ⟨S8192x172, .f32⟩
  | 8 => ⟨S_, .f32⟩
  | 9 => ⟨S8192x172, .f32⟩
  | 10 => ⟨S8192x172, .f32⟩
  | 11 => ⟨S_, .f32⟩
  | 12 => ⟨S8192x172, .f32⟩
  | _ => ⟨S200000x172, .f32⟩

abbrev hbmTy (i : Nat) : BufTy := match i / 128 with
  | 0 => hbmTy0_0 i
  | 1 => hbmTy0_1 i
  | _ => ⟨S200000x172, .f32⟩

abbrev bufTy : (tb : Table) → Fin (tcTables nBuf tb) → BufTy
  | .hbm, ⟨i, _⟩ => hbmTy i
  | _, _ => ⟨S200000x172, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_c_6 : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call1_cst : Ref sig .tc := ⟨.hbm, 74, rfl⟩
abbrev main_call1_v0 : Ref sig .tc := ⟨.hbm, 75, rfl⟩
abbrev main_v46 : Ref sig .tc := ⟨.hbm, 76, rfl⟩
abbrev main_c_8 : Ref sig .tc := ⟨.hbm, 77, rfl⟩
abbrev main_v47 : Ref sig .tc := ⟨.hbm, 78, rfl⟩
abbrev main_v48 : Ref sig .tc := ⟨.hbm, 79, rfl⟩
abbrev main_c_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_c_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_12 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_13 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v76 : Ref sig .tc := ⟨.hbm, 115, rfl⟩
abbrev main_v77 : Ref sig .tc := ⟨.hbm, 116, rfl⟩
abbrev main_cst_14 : Ref sig .tc := ⟨.hbm, 117, rfl⟩
abbrev main_v78 : Ref sig .tc := ⟨.hbm, 118, rfl⟩
abbrev main_cst_15 : Ref sig .tc := ⟨.hbm, 119, rfl⟩
abbrev main_v79 : Ref sig .tc := ⟨.hbm, 120, rfl⟩
abbrev main_v80 : Ref sig .tc := ⟨.hbm, 121, rfl⟩
abbrev main_c_16 : Ref sig .tc := ⟨.hbm, 122, rfl⟩
abbrev main_v81 : Ref sig .tc := ⟨.hbm, 123, rfl⟩
abbrev main_v82 : Ref sig .tc := ⟨.hbm, 124, rfl⟩
abbrev main_c_17 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_call3_cst : Ref sig .tc := ⟨.hbm, 136, rfl⟩
abbrev main_call3_v0 : Ref sig .tc := ⟨.hbm, 137, rfl⟩
abbrev main_v93 : Ref sig .tc := ⟨.hbm, 138, rfl⟩
abbrev main_cst_18 : Ref sig .tc := ⟨.hbm, 139, rfl⟩
abbrev main_v94 : Ref sig .tc := ⟨.hbm, 140, rfl⟩

abbrev nD : Nat := 1
abbrev τ : Topo := Topo.v7x

variable {F : FTy → Type} [FloatOps F]

class Facts₀ : Prop where
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  bcast_S100_S1x1x100_2 : S100.BroadcastsInDim S1x1x100 (![2] : Fin 1 → Fin S1x1x100.rank)
  bcast_S8192x32x1_S8192x32x100_0_1_2 : S8192x32x1.BroadcastsInDim S8192x32x100 (![0, 1, 2] : Fin 3 → Fin S8192x32x100.rank)
  bcast_S1x1x100_S8192x32x100_0_1_2 : S1x1x100.BroadcastsInDim S8192x32x100 (![0, 1, 2] : Fin 3 → Fin S8192x32x100.rank)
  bcast_S_S8192x32x100 : S_.BroadcastsInDim S8192x32x100 (![] : Fin 0 → Fin S8192x32x100.rank)
  concatenates_S8192x32x172_S8192x32x172_S8192x32x100_S8192x32x444_d2 : Shape.Concatenates [S8192x32x172, S8192x32x172, S8192x32x100] S8192x32x444 2
  reducesTo_S8192x32x444_S8192x444_d1 : S8192x32x444.ReducesTo [1] S8192x444
  h_S_ : 0 < S_.numel
  bcast_S_S8192x444 : S_.BroadcastsInDim S8192x444 (![] : Fin 0 → Fin S8192x444.rank)
  bcast_S_S8192 : S_.BroadcastsInDim S8192 (![] : Fin 0 → Fin S8192.rank)
  concatenates_S8192x172_S8192x444_S8192x616_d1 : Shape.Concatenates [S8192x172, S8192x444] S8192x616 1
  bcast_S172_S1x172_1 : S172.BroadcastsInDim S1x172 (![1] : Fin 1 → Fin S1x172.rank)
  bcast_S1x172_S8192x172_0_1 : S1x172.BroadcastsInDim S8192x172 (![0, 1] : Fin 2 → Fin S8192x172.rank)
  bcast_S_S8192x172 : S_.BroadcastsInDim S8192x172 (![] : Fin 0 → Fin S8192x172.rank)
  gather_S200000x172_S8192x32x1_S8192x32x172_2_0_n_n_0_2_1172_wf : GatherDims.WF S200000x172 S8192x32x1 S8192x32x172 [2] [0] [] [0] [] 2 ![1, 172]
  gather_S500000x172_S8192x32x1_S8192x32x172_2_0_n_n_0_2_1172_wf : GatherDims.WF S500000x172 S8192x32x1 S8192x32x172 [2] [0] [] [0] [] 2 ![1, 172]
  gather_S200000x172_S8192x1_S8192x172_1_0_n_n_0_1_1172_wf : GatherDims.WF S200000x172 S8192x1 S8192x172 [1] [0] [] [0] [] 1 ![1, 172]
  dot_S8192x616_S616x172_S8192x172_1_0_0_1_n_n_wf : DotDims.WF S8192x616 S616x172 S8192x172 [1] [0] [0] [1] [] []

variable [Facts₀]

def gather_S200000x172_S8192x32x1_S8192x32x172_2_0_n_n_0_2_1172 : GatherDims S200000x172 S8192x32x1 S8192x32x172 where
  offsetDims := [2]
  collapsedSliceDims := [0]
  operandBatchingDims := []
  startIndicesBatchingDims := []
  startIndexMap := [0]
  indexVectorDim := 2
  sliceSizes := ![1, 172]
  wf := gather_S200000x172_S8192x32x1_S8192x32x172_2_0_n_n_0_2_1172_wf
def gather_S500000x172_S8192x32x1_S8192x32x172_2_0_n_n_0_2_1172 : GatherDims S500000x172 S8192x32x1 S8192x32x172 where
  offsetDims := [2]
  collapsedSliceDims := [0]
  operandBatchingDims := []
  startIndicesBatchingDims := []
  startIndexMap := [0]
  indexVectorDim := 2
  sliceSizes := ![1, 172]
  wf := gather_S500000x172_S8192x32x1_S8192x32x172_2_0_n_n_0_2_1172_wf
def gather_S200000x172_S8192x1_S8192x172_1_0_n_n_0_1_1172 : GatherDims S200000x172 S8192x1 S8192x172 where
  offsetDims := [1]
  collapsedSliceDims := [0]
  operandBatchingDims := []
  startIndicesBatchingDims := []
  startIndexMap := [0]
  indexVectorDim := 1
  sliceSizes := ![1, 172]
  wf := gather_S200000x172_S8192x1_S8192x172_1_0_n_n_0_1_1172_wf
def dot_S8192x616_S616x172_S8192x172_1_0_0_1_n_n : DotDims S8192x616 S616x172 S8192x172 where
  lhsContracting := [1]
  rhsContracting := [0]
  lhsNonContracting := [0]
  rhsNonContracting := [1]
  lhsBatch := []
  rhsBatch := []
  wf := dot_S8192x616_S616x172_S8192x172_1_0_0_1_n_n_wf

class Facts : Prop extends Facts₀ where

variable [Facts]
-- ==== Proof.KernelRun.lean ====
/-
  The kernel program's run with its final buffers NAMED.

  @main is a stretch of host operations, the source-side region, the destination-side region and a two-operation
  tail. Its buffers at the four boundaries are a fold from the launch memory: after the host stretch (`W1`), after each
  region (its arrays at what the region's write-backs leave, every other buffer untouched: `W2`, `W3`) and after the
  tail (`W4`). Every weakly fair execution ends with EVERY buffer that outlives a region at `W4`: that is the
  statement below, from which a result buffer's value is read off by walking `W4` back through the fold.
-/
import proofs.«118674_j90735479095614_2_alg».proof.Proof.Gen.KernelIdeal.Frame

noncomputable section

namespace Cert.KernelIdeal.Ends

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer that outlives a region at
    the last boundary's contents `W4`: the four segments chained through "every such buffer at the boundary's
    contents", and the last such state read against the final memory. -/
theorem run_ends : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- A result or argument buffer of @main (never a region's scratch) ends at `W4`. -/
theorem ends_at {r : PUnit × MemSt nD τ sig (Elt F)}
    (h : ∀ c : Dev nD, ∀ b ∈ Pipeline.ucRefs τ sig, r.2.mem (((c : Thread nD τ)).1, b) = W4 m ρ c b)
    (c : Dev nD) (b : Ref sig .tc) (hb : ¬ (Proc.devRef .tc b : DevRef τ sig).isScoped) :
    r.2.mem ((c.tc : Thread nD τ).loc b) = W4 m ρ c (Proc.devRef .tc b) :=
  h c _ (mem_uc b hb)

end Cert.KernelIdeal.Ends

end
-- ==== Proof.Spec.lean ====
/-
  One side of the model (source or destination) as ONE function of arrays, entry by entry.

  Row `b` of the result is `relu (x_b · W + bias)` where `x_b` is the 616-long row made of the node's own 172
  features, the mean over its 32 neighbours of the neighbours' 172 node features, of the 172 edge features, and of
  100 time features `cos ((t_b - t_{b,s}) · w_k + β_k)`, a neighbour slot whose id is 0 contributing 0 to the last.
  The function below spells the product with `W` as four sums over the four row ranges of `W` (0, 172, 344, 516) and
  each mean as the sum over the 32 slots times the word `1/32`; the mask is the factor `keep`, 0 or 1.
  It is written over the gathered feature arrays (`cur`, `nf`, `ef`): which table rows they hold is the same
  expression in both programs and is never opened.
-/
import Idealize.ShloMosaic.PureOps.Ideal
import Idealize.ShloMosaic.PureOps.Ideal.Laws
import Idealize.ShloMosaic.Lib.ValueIdx

noncomputable section

open scoped BigOperators

namespace Cert.Side

open Idealize.ShloMosaic Idealize.ShloMosaic.ValueIdx

/-- The word of `1/32`, the factor that turns a sum over the 32 neighbour slots into their mean. -/
abbrev c32 : EReal := Ideal.ofBits .f32 0x3D000000#32
/-- The zero word the rectifier compares against. -/
abbrev z0 : EReal := Ideal.ofBits .f32 0x00000000#32

/-- A neighbour slot counts in the time features iff its id is not 0. -/
def keep (n : BitVec 32) : EReal := if n = 0#32 then 0 else 1

/-- Row `off + k` of the 616-row weight matrix. -/
def wrow (off n : Nat) (h : off + n ≤ 616) (k : Fin n) : Fin 616 := ⟨off + k.val, by have := k.isLt; omega⟩

/-- The time feature `k` of neighbour slot `s` of row `b`, masked. -/
def tfeat (nbr : (⟨2, ![8192, 32]⟩ : Shape).Idx → BitVec 32) (it : (⟨1, ![8192]⟩ : Shape).Idx → EReal)
    (nt : (⟨2, ![8192, 32]⟩ : Shape).Idx → EReal) (tw tb : (⟨1, ![100]⟩ : Shape).Idx → EReal)
    (b : Fin 8192) (s : Fin 32) (k : Fin 100) : EReal :=
  Ideal.cos ((it (ix1 b) - nt (ix2 b s)) * tw (ix1 k) + tb (ix1 k)) * keep (nbr (ix2 b s))

/-- Entry `(b, q)` of one side's embedding. -/
def rowVal (cur : (⟨2, ![8192, 172]⟩ : Shape).Idx → EReal) (nf ef : (⟨3, ![8192, 32, 172]⟩ : Shape).Idx → EReal)
    (nbr : (⟨2, ![8192, 32]⟩ : Shape).Idx → BitVec 32) (it : (⟨1, ![8192]⟩ : Shape).Idx → EReal)
    (nt : (⟨2, ![8192, 32]⟩ : Shape).Idx → EReal) (tw tb : (⟨1, ![100]⟩ : Shape).Idx → EReal)
    (W : (⟨2, ![616, 172]⟩ : Shape).Idx → EReal) (bias : (⟨1, ![172]⟩ : Shape).Idx → EReal)
    (b : Fin 8192) (q : Fin 172) : EReal :=
  max (((((∑ k : Fin 172, cur (ix2 b k) * W (ix2 (wrow 0 172 (by omega) k) q))
        + ∑ k : Fin 172, ((∑ s : Fin 32, nf (ix3 b s k)) * c32) * W (ix2 (wrow 172 172 (by omega) k) q))
        + ∑ k : Fin 172, ((∑ s : Fin 32, ef (ix3 b s k)) * c32) * W (ix2 (wrow 344 172 (by omega) k) q))
        + ∑ k : Fin 100, ((∑ s : Fin 32, tfeat nbr it nt tw tb b s k) * c32) * W (ix2 (wrow 516 100 (by omega) k) q))
        + bias (ix1 q)) z0

/-- One side's embedding, the whole [8192, 172] array. -/
def G (cur : (⟨2, ![8192, 172]⟩ : Shape).Idx → EReal) (nf ef : (⟨3, ![8192, 32, 172]⟩ : Shape).Idx → EReal)
    (nbr : (⟨2, ![8192, 32]⟩ : Shape).Idx → BitVec 32) (it : (⟨1, ![8192]⟩ : Shape).Idx → EReal)
    (nt : (⟨2, ![8192, 32]⟩ : Shape).Idx → EReal) (tw tb : (⟨1, ![100]⟩ : Shape).Idx → EReal)
    (W : (⟨2, ![616, 172]⟩ : Shape).Idx → EReal) (bias : (⟨1, ![172]⟩ : Shape).Idx → EReal) :
    (⟨2, ![8192, 172]⟩ : Shape).Idx → EReal :=
  fun j => rowVal cur nf ef nbr it nt tw tb W bias (j 0) (j 1)

theorem G_ix2 (cur nf ef nbr it nt tw tb W bias) (b : Fin 8192) (q : Fin 172) :
    G cur nf ef nbr it nt tw tb W bias (ix2 b q) = rowVal cur nf ef nbr it nt tw tb W bias b q := rfl

/-! ## The two words -/

/-- The word `0x3D000000` denotes `1/32`. -/
theorem c32_eq : c32 = ((1 / 32 : ℝ) : EReal) := by
  simp [c32, Ideal.ofBits, Ideal.ieee, -EReal.coe_mul]; norm_num

/-- The word `0x42000000` denotes `32`. -/
theorem ofBits_32 : Ideal.ofBits .f32 0x42000000#32 = ((32 : ℝ) : EReal) := by
  simp [Ideal.ofBits, Ideal.ieee, -EReal.coe_mul]; norm_num

/-- Dividing by the word `32` is multiplying by the word `1/32`, on every extended real. -/
theorem div_32 (x : EReal) : Ideal.div x (Ideal.ofBits .f32 0x42000000#32) = x * c32 := by
  rw [ofBits_32, Ideal.div_coe (by norm_num : (32 : ℝ) ≠ 0), c32_eq]

/-! ## The mask -/

theorem keep_zero : keep 0#32 = 0 := if_pos rfl
theorem keep_of_ne {n : BitVec 32} (h : n ≠ 0#32) : keep n = 1 := if_neg h

/-- Multiplying by the mask keeps the value or replaces it by `0`: `x · 0 = 0` and `x · 1 = x` hold for every
    extended real, the infinities included. -/
theorem mul_keep (x : EReal) (n : BitVec 32) : x * keep n = if n = 0#32 then 0 else x := by
  unfold keep; split <;> simp

end Cert.Side

end
-- ==== Proof.LibColumnLayouts.lean ====
/-
  Casts and broadcasts through a TRAILING unit axis, read at an index written by coordinates.

  A reduction that keeps its dimension, or a per-row scalar spread along a row, goes through shapes with a unit axis
  at the END: `[a] → [a, 1] → [a, b]` and `[a, b] → [a, b, 1] → [a, b, c]`. Each lemma below says which entry of the
  operand a cast or broadcast of that family reads, for any extents; the last one is a `[1, 1, c]` row spread over
  both leading axes. All are instances of the library's general reading of a shape cast (same row-major position)
  and of a broadcast (the operand at the trailing coordinates, `0` on its unit axes).
-/
import Idealize.ShloMosaic.Lib.Pipeline.Value
import Idealize.ShloMosaic.Lib.ValueIdx

noncomputable section

namespace Cert.ColumnLayouts

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, s, k)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A `[1, 1, c]` row broadcast to `[a, b, c]` reads, at `(p, s, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.ColumnLayouts

end
-- ==== Proof.BodyOps.lean ====
/-
  The kernel body's operations read at one entry of the block.

  Over the extended reals the body's two kinds of non-pointwise operation are plain sums: a product of a
  [128, K] block with a [K, 172] block into a zero accumulator is, at (p, q), the sum over k < K of the products of
  row p and column q; a sum of a [128, 32, C] block over its middle axis is, at (p, k), the sum over the 32 slots.
-/
import proofs.«118674_j90735479095614_2_alg».proof.Proof.Gen.KernelIdeal.Skeleton
import proofs.«118674_j90735479095614_2_alg».proof.Proof.Spec
import proofs.«118674_j90735479095614_2_alg».proof.Proof.LibColumnLayouts
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Facts₀ Cert.KernelIdeal.Facts Idealize.ShloMosaic Idealize.ShloMosaic.ValueIdx

/-! ## The two matrix products -/

theorem lhs172_0 (i : S128x172.Idx) (q : dot_S128x172_S172x172_S128x172_1_0_0_1_n_n.contr.Idx) :
    (dot_S128x172_S172x172_S128x172_1_0_0_1_n_n.lhsIdx i q 0).val = (i 0).val := by
  unfold DotDims.lhsIdx
  rw [dif_neg (show ¬(0 : Fin S128x172.rank) ∈ dot_S128x172_S172x172_S128x172_1_0_0_1_n_n.lhsBatch by decide),
    dif_pos (show (0 : Fin S128x172.rank) ∈ dot_S128x172_S172x172_S128x172_1_0_0_1_n_n.lhsNonContracting by decide)]
  rfl

theorem rhs172_1 (i : S128x172.Idx) (q : dot_S128x172_S172x172_S128x172_1_0_0_1_n_n.contr.Idx) :
    (dot_S128x172_S172x172_S128x172_1_0_0_1_n_n.rhsIdx i q 1).val = (i 1).val := by
  unfold DotDims.rhsIdx
  rw [dif_neg (show ¬(1 : Fin S172x172.rank) ∈ dot_S128x172_S172x172_S128x172_1_0_0_1_n_n.rhsBatch by decide),
    dif_pos (show (1 : Fin S172x172.rank) ∈ dot_S128x172_S172x172_S128x172_1_0_0_1_n_n.rhsNonContracting by decide)]
  rfl

/-- A [128, 172] block times a [172, 172] block, into zero, at (p, q): the sum over the 172 shared coordinates. -/
theorem matmul172 (lhs : FVec Ideal S128x172 .bf16) (rhs : FVec Ideal S172x172 .bf16) (p : Fin 128) (q : Fin 172) :
    matmul dot_S128x172_S172x172_S128x172_1_0_0_1_n_n none lhs rhs (constant S128x172 .f32 0x00000000#32) (ix2 p q)
      = ∑ k : Fin 172, lhs (ix2 p k) * rhs (ix2 k q) := by
  simp only [matmul]
  rw [Ideal.matmul_constant_zero_apply,
    ← Equiv.sum_comp (contrEquiv1 dot_S128x172_S172x172_S128x172_1_0_0_1_n_n 172 rfl rfl).symm]
  refine Finset.sum_congr rfl fun k _ => ?_
  have hk := contrEquiv1_symm_val dot_S128x172_S172x172_S128x172_1_0_0_1_n_n 172 rfl rfl k
  have el : dot_S128x172_S172x172_S128x172_1_0_0_1_n_n.lhsIdx (ix2 p q)
      ((contrEquiv1 dot_S128x172_S172x172_S128x172_1_0_0_1_n_n 172 rfl rfl).symm k) = ix2 p k :=
    funext fun a => Fin.ext (by
      match a with
      | ⟨0, _⟩ => exact lhs172_0 _ _
      | ⟨1, _⟩ => exact (dot_S128x172_S172x172_S128x172_1_0_0_1_n_n.lhsIdx_val_of_single rfl _ _).trans hk)
  have er : dot_S128x172_S172x172_S128x172_1_0_0_1_n_n.rhsIdx (ix2 p q)
      ((contrEquiv1 dot_S128x172_S172x172_S128x172_1_0_0_1_n_n 172 rfl rfl).symm k) = ix2 k q :=
    funext fun a => Fin.ext (by
      match a with
      | ⟨0, _⟩ => exact (dot_S128x172_S172x172_S128x172_1_0_0_1_n_n.rhsIdx_val_of_single rfl _ _).trans hk
      | ⟨1, _⟩ => exact rhs172_1 _ _)
  rw [el, er]

theorem lhs100_0 (i : S128x172.Idx) (q : dot_S128x100_S100x172_S128x172_1_0_0_1_n_n.contr.Idx) :
    (dot_S128x100_S100x172_S128x172_1_0_0_1_n_n.lhsIdx i q 0).val = (i 0).val := by
  unfold DotDims.lhsIdx
  rw [dif_neg (show ¬(0 : Fin S128x100.rank) ∈ dot_S128x100_S100x172_S128x172_1_0_0_1_n_n.lhsBatch by decide),
    dif_pos (show (0 : Fin S128x100.rank) ∈ dot_S128x100_S100x172_S128x172_1_0_0_1_n_n.lhsNonContracting by decide)]
  rfl

theorem rhs100_1 (i : S128x172.Idx) (q : dot_S128x100_S100x172_S128x172_1_0_0_1_n_n.contr.Idx) :
    (dot_S128x100_S100x172_S128x172_1_0_0_1_n_n.rhsIdx i q 1).val = (i 1).val := by
  unfold DotDims.rhsIdx
  rw [dif_neg (show ¬(1 : Fin S100x172.rank) ∈ dot_S128x100_S100x172_S128x172_1_0_0_1_n_n.rhsBatch by decide),
    dif_pos (show (1 : Fin S100x172.rank) ∈ dot_S128x100_S100x172_S128x172_1_0_0_1_n_n.rhsNonContracting by decide)]
  rfl

/-- A [128, 100] block times a [100, 172] block, into zero, at (p, q): the sum over the 100 shared coordinates. -/
theorem matmul100 (lhs : FVec Ideal S128x100 .bf16) (rhs : FVec Ideal S100x172 .bf16) (p : Fin 128) (q : Fin 172) :
    matmul dot_S128x100_S100x172_S128x172_1_0_0_1_n_n none lhs rhs (constant S128x172 .f32 0x00000000#32) (ix2 p q)
      = ∑ k : Fin 100, lhs (ix2 p k) * rhs (ix2 k q) := by
  simp only [matmul]
  rw [Ideal.matmul_constant_zero_apply,
    ← Equiv.sum_comp (contrEquiv1 dot_S128x100_S100x172_S128x172_1_0_0_1_n_n 100 rfl rfl).symm]
  refine Finset.sum_congr rfl fun k _ => ?_
  have hk := contrEquiv1_symm_val dot_S128x100_S100x172_S128x172_1_0_0_1_n_n 100 rfl rfl k
  have el : dot_S128x100_S100x172_S128x172_1_0_0_1_n_n.lhsIdx (ix2 p q)
      ((contrEquiv1 dot_S128x100_S100x172_S128x172_1_0_0_1_n_n 100 rfl rfl).symm k) = ix2 p k :=
    funext fun a => Fin.ext (by
      match a with
      | ⟨0, _⟩ => exact lhs100_0 _ _
      | ⟨1, _⟩ => exact (dot_S128x100_S100x172_S128x172_1_0_0_1_n_n.lhsIdx_val_of_single rfl _ _).trans hk)
  have er : dot_S128x100_S100x172_S128x172_1_0_0_1_n_n.rhsIdx (ix2 p q)
      ((contrEquiv1 dot_S128x100_S100x172_S128x172_1_0_0_1_n_n 100 rfl rfl).symm k) = ix2 k q :=
    funext fun a => Fin.ext (by
      match a with
      | ⟨0, _⟩ => exact (dot_S128x100_S100x172_S128x172_1_0_0_1_n_n.rhsIdx_val_of_single rfl _ _).trans hk
      | ⟨1, _⟩ => exact rhs100_1 _ _)
  rw [el, er]

/-! ## The sums over the 32 neighbour slots -/

/-- The sum of a [128, 32, 172] block over its middle axis, at (p, k). -/
theorem slots172 (v : FVec Ideal S128x32x172 .f32) (hφ : FKind.Formats .f32)
    (hacc : (0x00000000#32 : BitVec 32) = FKind.add.neutral .f32 hφ) (p : Fin 128) (k : Fin 172) :
    multiReduction .add [1] S128x172 v 0x00000000#32 reduces_S128x32x172_S128x172 hφ hacc (ix2 p k)
      = ∑ s : Fin 32, v (ix3 p s k) := by
  refine (Ideal.multiReduction_add_single v 0x00000000#32 reduces_S128x32x172_S128x172 hφ hacc (ix2 p k)).trans ?_
  show ∑ s : Fin 32, v (reduces_S128x32x172_S128x172.lift (ix2 p k) s) = _
  refine Finset.sum_congr rfl fun s _ => congrArg v (funext fun a => Fin.ext ?_)
  match a with
  | ⟨0, _⟩ => rfl
  | ⟨1, _⟩ => rfl
  | ⟨2, _⟩ => rfl

/-- The sum of a [128, 32, 100] block over its middle axis, at (p, k). -/
theorem slots100 (v : FVec Ideal S128x32x100 .f32) (hφ : FKind.Formats .f32)
    (hacc : (0x00000000#32 : BitVec 32) = FKind.add.neutral .f32 hφ) (p : Fin 128) (k : Fin 100) :
    multiReduction .add [1] S128x100 v 0x00000000#32 reduces_S128x32x100_S128x100 hφ hacc (ix2 p k)
      = ∑ s : Fin 32, v (ix3 p s k) := by
  refine (Ideal.multiReduction_add_single v 0x00000000#32 reduces_S128x32x100_S128x100 hφ hacc (ix2 p k)).trans ?_
  show ∑ s : Fin 32, v (reduces_S128x32x100_S128x100.lift (ix2 p k) s) = _
  refine Finset.sum_congr rfl fun s _ => congrArg v (funext fun a => Fin.ext ?_)
  match a with
  | ⟨0, _⟩ => rfl
  | ⟨1, _⟩ => rfl
  | ⟨2, _⟩ => rfl

end Cert.KernelIdeal.Body

end
-- ==== Proof.Body.lean ====
/-
  One entry of the block the kernel body stores, as a formula over the blocks it loads.

  With the lane sums and the matrix products read as plain sums, entry (p, q) of the stored block is
  `max (cur_p · Wc + mean(nf)_p · Wn + mean(ef)_p · We + mean(tf)_p · Wt + bias, 0)` at column q, where a mean is the
  sum over the 32 slots times the word 1/32 and the time features are masked by the factor 0-or-1 computed from
  the neighbour id (the comparison bit, widened and converted, is exactly that factor).
-/
import proofs.«118674_j90735479095614_2_alg».proof.Proof.BodyOps
import Idealize.ShloMosaic.Lib.Affine

noncomputable section

open scoped BigOperators

namespace Cert.KernelIdeal.Body

open Cert.KernelIdeal Cert.KernelIdeal.Gen Idealize.ShloMosaic Idealize.ShloMosaic.ValueIdx Cert.Side Cert.ColumnLayouts

/-- The comparison bit "id ≠ 0", widened to a word and converted, is the mask factor: 0 for id 0, else 1. -/
theorem keep_word (n : BitVec 32) :
    FloatOps.sitofp (F := Ideal) .f32 ((IntOp.cmpi .ne n 0#32).setWidth 32) = keep n := by
  by_cases h : n = 0#32
  · have hc : IntOp.cmpi .ne n 0#32 = 0#1 := eq_zero_of_ne_one (fun h1 => (IntOp.cmpi_ne.mp h1) h)
    rw [hc, h, keep_zero]
    show ((((0#1 : BitVec 1).setWidth 32).toInt : ℝ) : EReal) = 0
    have : ((0#1 : BitVec 1).setWidth 32).toInt = 0 := by decide
    rw [this]; simp
  · have hc : IntOp.cmpi .ne n 0#32 = 1#1 := IntOp.cmpi_ne.mpr h
    rw [hc, keep_of_ne h]
    show ((((1#1 : BitVec 1).setWidth 32).toInt : ℝ) : EReal) = 1
    have : ((1#1 : BitVec 1).setWidth 32).toInt = 1 := by decide
    rw [this]; simp

theorem cos_apply {s : Shape} (x : FVec Ideal s .f32) (i : s.Idx) : cos x i = Ideal.cos (x i) := rfl
theorem cmpi_apply {s : Shape} {w : Nat} (p : CmpIPredicate) (x y : IVec s w) (i : s.Idx) :
    cmpi p x y i = IntOp.cmpi p (x i) (y i) := rfl

/-- The mean of the neighbours' node features (payload 4) at (p, k). -/
theorem pay4_apply (x0 : Vec Ideal S128x32x172 .bf16) (p : Fin 128) (k : Fin 172) :
    k0_pay4 (F := Ideal) x0 (ix2 p k) = (∑ s : Fin 32, x0 (ix3 p s k)) * c32 := by
  unfold k0_pay4
  dsimp only
  refine congrArg (· * c32) ((slots172 _ _ _ p k).trans (Finset.sum_congr rfl fun s _ => ?_))
  simp only [extf_apply, shapeCast_self]

/-- The sum of the neighbours' edge features (payload 2) at (p, k). -/
theorem pay2_apply (x1 : Vec Ideal S128x32x172 .bf16) (p : Fin 128) (k : Fin 172) :
    k0_pay2 (F := Ideal) x1 (ix2 p k) = ∑ s : Fin 32, x1 (ix3 p s k) := by
  unfold k0_pay2
  dsimp only
  refine (slots172 _ _ _ p k).trans (Finset.sum_congr rfl fun s _ => ?_)
  simp only [extf_apply, shapeCast_self]

/-- The sum of the masked time features (payload 3) at (p, k). -/
theorem pay3_apply (x4 : Vec Ideal S128x1 .f32) (x3 : Vec Ideal S128x32 .f32) (x6 x7 : Vec Ideal S1x100 .f32)
    (x2 : Vec Ideal S128x32 .i32) (p : Fin 128) (k : Fin 100) :
    k0_pay3 (F := Ideal) x4 x3 x6 x7 x2 (ix2 p k)
      = ∑ s : Fin 32, Ideal.cos ((x4 (ix2 p (0 : Fin 1)) - x3 (ix2 p s)) * x6 (ix2 (0 : Fin 1) k) + x7 (ix2 (0 : Fin 1) k))
          * keep (x2 (ix2 p s)) := by
  unfold k0_pay3
  dsimp only
  refine (slots100 _ _ _ p k).trans (Finset.sum_congr rfl fun s _ => ?_)
  simp only [mulf_apply, addf_apply, subf_apply, cos_apply, broadcast_apply, sitofp_apply, extui_apply,
    cmpi_apply, shapeCast_self, broadcastTo_ab1_abc_apply, shapeCast_ab_ab1_apply, broadcastTo_a1_ab_apply,
    broadcastTo_11c_abc_apply, shapeCast_ab_1ab_apply, keep_word]

/-- The stored value (payload 1) at (p, q), over the values it is computed from. -/
theorem pay1_apply (v7 : FVec Ideal S128x172 .f32) (v34 : FVec Ideal S128x100 .f32) (v37 : FVec Ideal S128x172 .bf16)
    (v44 : Vec Ideal S128x172 .bf16) (v46 v49 v53 : Vec Ideal S172x172 .bf16) (v57 : Vec Ideal S100x172 .bf16)
    (v61 : Vec Ideal S1x172 .f32) (p : Fin 128) (q : Fin 172) :
    k0_pay1 (F := Ideal) v7 v34 v37 v44 v46 v49 v53 v57 v61 (ix2 p q)
      = max (((((∑ k : Fin 172, v44 (ix2 p k) * v46 (ix2 k q))
            + ∑ k : Fin 172, v37 (ix2 p k) * v49 (ix2 k q))
            + ∑ k : Fin 172, (v7 (ix2 p k) * c32) * v53 (ix2 k q))
            + ∑ k : Fin 100, (v34 (ix2 p k) * c32) * v57 (ix2 k q))
            + v61 (ix2 (0 : Fin 1) q)) z0 := by
  unfold k0_pay1
  simp only [maximumf_apply, addf_apply, mulf_apply, truncf_apply, broadcast_apply, shapeCast_self, matmul172, matmul100,
    broadcastTo_1b_ab_apply]
  rfl

/-- Entry (p, q) of the block the body stores, over the thirteen blocks it loads. -/
def blockVal (x0 x1 : Vec Ideal S128x32x172 .bf16) (x2 : Vec Ideal S128x32 .i32) (x3 : Vec Ideal S128x32 .f32)
    (x4 : Vec Ideal S128x1 .f32) (x5 : Vec Ideal S128x172 .bf16) (x6 x7 : Vec Ideal S1x100 .f32)
    (x8 x9 x10 : Vec Ideal S172x172 .bf16) (x11 : Vec Ideal S100x172 .bf16) (x12 : Vec Ideal S1x172 .f32)
    (p : Fin 128) (q : Fin 172) : EReal :=
  max (((((∑ k : Fin 172, x5 (ix2 p k) * x8 (ix2 k q))
        + ∑ k : Fin 172, ((∑ s : Fin 32, x0 (ix3 p s k)) * c32) * x9 (ix2 k q))
        + ∑ k : Fin 172, ((∑ s : Fin 32, x1 (ix3 p s k)) * c32) * x10 (ix2 k q))
        + ∑ k : Fin 100, ((∑ s : Fin 32, Ideal.cos ((x4 (ix2 p (0 : Fin 1)) - x3 (ix2 p s)) * x6 (ix2 (0 : Fin 1) k)
              + x7 (ix2 (0 : Fin 1) k)) * keep (x2 (ix2 p s))) * c32) * x11 (ix2 k q))
        + x12 (ix2 (0 : Fin 1) q)) z0

theorem stored_apply (x0 x1 : Vec Ideal S128x32x172 .bf16) (x2 : Vec Ideal S128x32 .i32) (x3 : Vec Ideal S128x32 .f32)
    (x4 : Vec Ideal S128x1 .f32) (x5 : Vec Ideal S128x172 .bf16) (x6 x7 : Vec Ideal S1x100 .f32)
    (x8 x9 x10 : Vec Ideal S172x172 .bf16) (x11 : Vec Ideal S100x172 .bf16) (x12 : Vec Ideal S1x172 .f32)
    (p : Fin 128) (q : Fin 172) :
    k0_pay1 (F := Ideal) (k0_pay2 x1) (k0_pay3 x4 x3 x6 x7 x2) (k0_pay4 x0) x5 x8 x9 x10 x11 x12 (ix2 p q)
      = blockVal x0 x1 x2 x3 x4 x5 x6 x7 x8 x9 x10 x11 x12 p q := by
  rw [pay1_apply]
  simp only [pay2_apply, pay3_apply, pay4_apply]
  rfl

/-- The same at any index of the block, by its two coordinates. -/
theorem stored_at (x0 x1 : Vec Ideal S128x32x172 .bf16) (x2 : Vec Ideal S128x32 .i32) (x3 : Vec Ideal S128x32 .f32)
    (x4 : Vec Ideal S128x1 .f32) (x5 : Vec Ideal S128x172 .bf16) (x6 x7 : Vec Ideal S1x100 .f32)
    (x8 x9 x10 : Vec Ideal S172x172 .bf16) (x11 : Vec Ideal S100x172 .bf16) (x12 : Vec Ideal S1x172 .f32)
    (j : S128x172.Idx) :
    k0_pay1 (F := Ideal) (k0_pay2 x1) (k0_pay3 x4 x3 x6 x7 x2) (k0_pay4 x0) x5 x8 x9 x10 x11 x12 j
      = blockVal x0 x1 x2 x3 x4 x5 x6 x7 x8 x9 x10 x11 x12 (j 0) (j 1) := by
  obtain ⟨p, q, rfl⟩ : ∃ (p : Fin 128) (q : Fin 172), j = ix2 p q := ⟨j 0, j 1, eq_ix2 j⟩
  exact stored_apply x0 x1 x2 x3 x4 x5 x6 x7 x8 x9 x10 x11 x12 p q

/-! ## The same entry over whole arrays -/

/-- Entry (b, q) of a region's output over the thirteen ARRAYS the region reads: the block formula with the row
    `b` of the whole arrays in place of the row `p` of the blocks. -/
def arrVal (a0 a1 : Vec Ideal S8192x32x172 .bf16) (a2 : Vec Ideal S8192x32 .i32) (a3 : Vec Ideal S8192x32 .f32)
    (a4 : Vec Ideal S8192x1 .f32) (a5 : Vec Ideal S8192x172 .bf16) (a6 a7 : Vec Ideal S1x100 .f32)
    (a8 a9 a10 : Vec Ideal S172x172 .bf16) (a11 : Vec Ideal S100x172 .bf16) (a12 : Vec Ideal S1x172 .f32)
    (b : Fin 8192) (q : Fin 172) : EReal :=
  max (((((∑ k : Fin 172, a5 (ix2 b k) * a8 (ix2 k q))
        + ∑ k : Fin 172, ((∑ s : Fin 32, a0 (ix3 b s k)) * c32) * a9 (ix2 k q))
        + ∑ k : Fin 172, ((∑ s : Fin 32, a1 (ix3 b s k)) * c32) * a10 (ix2 k q))
        + ∑ k : Fin 100, ((∑ s : Fin 32, Ideal.cos ((a4 (ix2 b (0 : Fin 1)) - a3 (ix2 b s)) * a6 (ix2 (0 : Fin 1) k)
              + a7 (ix2 (0 : Fin 1) k)) * keep (a2 (ix2 b s))) * c32) * a11 (ix2 k q))
        + a12 (ix2 (0 : Fin 1) q)) z0

/-- A region's whole output array over the thirteen arrays it reads. -/
def regionVal (a0 a1 : Vec Ideal S8192x32x172 .bf16) (a2 : Vec Ideal S8192x32 .i32) (a3 : Vec Ideal S8192x32 .f32)
    (a4 : Vec Ideal S8192x1 .f32) (a5 : Vec Ideal S8192x172 .bf16) (a6 a7 : Vec Ideal S1x100 .f32)
    (a8 a9 a10 : Vec Ideal S172x172 .bf16) (a11 : Vec Ideal S100x172 .bf16) (a12 : Vec Ideal S1x172 .f32) :
    Vec Ideal S8192x172 .f32 :=
  fun j => arrVal a0 a1 a2 a3 a4 a5 a6 a7 a8 a9 a10 a11 a12 (j 0) (j 1)

end Cert.KernelIdeal.Body

end
-- ==== Proof.Region0.lean ====
/-
  Region 0 of the kernel program (the source side): its output array is `Body.regionVal` of the thirteen arrays it reads.

  The grid has 64 points; point `t` reads rows `128 t … 128 t + 127` of the six row-blocked arrays and the whole of
  the seven small ones, and writes rows `128 t … 128 t + 127` of the output. So what point `t` writes back is block
  `t` of ONE whole-array function of the arrays as the region finds them, and the 64 blocks cover the output.
-/
import proofs.«118674_j90735479095614_2_alg».proof.Proof.Gen.KernelIdeal.Frame
import proofs.«118674_j90735479095614_2_alg».proof.Proof.Body
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx Cert.Side
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Row `128 t + p` of the whole arrays: row `p` of point `t`'s blocks. -/
def row (t : Fin cfg0.N) (p : Fin 128) : Fin 8192 :=
  ⟨t.val * 128 + p.val, by have := t.isLt; have hN : cfg0.N = 64 := N_0; have := p.isLt; omega⟩

/-! ## The index maps, decided over the 64 points: a row-blocked window is at block `t`, a small one at block 0 -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)

/-! ## Each input block read as rows of its array -/

theorem blk0 (c : Dev nD) (t : Fin cfg0.N) (p : Fin 128) (s : Fin 32) (k : Fin 172) :
    iblk0 V c 0 t (ix3 p s k) = V c main_v8 (ix3 (row t p) s k) := by
  obtain ⟨e0, e1, e2⟩ := idx0 t
  unfold iblk0
  rw [View.read_apply]
  show V c main_v8 _ = V c main_v8 _
  congr 1
  funext a
  apply Fin.ext
  match a with
  | ⟨0, _⟩ => show win0_0.index t (0 : Fin 3) * 128 + 1 * p.val = t.val * 128 + p.val; rw [e0]; omega
  | ⟨1, _⟩ => show win0_0.index t (1 : Fin 3) * 32 + 1 * s.val = s.val; rw [e1]; omega
  | ⟨2, _⟩ => show win0_0.index t (2 : Fin 3) * 172 + 1 * k.val = k.val; rw [e2]; omega
theorem blk1 (c : Dev nD) (t : Fin cfg0.N) (p : Fin 128) (s : Fin 32) (k : Fin 172) :
    iblk0 V c 1 t (ix3 p s k) = V c main_v15 (ix3 (row t p) s k) := by
  obtain ⟨e0, e1, e2⟩ := idx1 t
  unfold iblk0
  rw [View.read_apply]
  show V c main_v15 _ = V c main_v15 _
  congr 1
  funext a
  apply Fin.ext
  match a with
  | ⟨0, _⟩ => show win0_1.index t (0 : Fin 3) * 128 + 1 * p.val = t.val * 128 + p.val; rw [e0]; omega
  | ⟨1, _⟩ => show win0_1.index t (1 : Fin 3) * 32 + 1 * s.val = s.val; rw [e1]; omega
  | ⟨2, _⟩ => show win0_1.index t (2 : Fin 3) * 172 + 1 * k.val = k.val; rw [e2]; omega
theorem blk2 (c : Dev nD) (t : Fin cfg0.N) (p : Fin 128) (s : Fin 32) :
    iblk0 V c 2 t (ix2 p s) = V c main_arg5 (ix2 (row t p) s) := by
  obtain ⟨e0, e1⟩ := idx2 t
  unfold iblk0
  rw [View.read_apply]
  show V c main_arg5 _ = V c main_arg5 _
  congr 1
  funext a
  apply Fin.ext
  match a with
  | ⟨0, _⟩ => show win0_2.index t (0 : Fin 2) * 128 + 1 * p.val = t.val * 128 + p.val; rw [e0]; omega
  | ⟨1, _⟩ => show win0_2.index t (1 : Fin 2) * 32 + 1 * s.val = s.val; rw [e1]; omega
theorem blk3 (c : Dev nD) (t : Fin cfg0.N) (p : Fin 128) (s : Fin 32) :
    iblk0 V c 3 t (ix2 p s) = V c main_arg7 (ix2 (row t p) s) := by
  obtain ⟨e0, e1⟩ := idx3 t
  unfold iblk0
  rw [View.read_apply]
  show V c main_arg7 _ = V c main_arg7 _
  congr 1
  funext a
  apply Fin.ext
  match a with
  | ⟨0, _⟩ => show win0_3.index t (0 : Fin 2) * 128 + 1 * p.val = t.val * 128 + p.val; rw [e0]; omega
  | ⟨1, _⟩ => show win0_3.index t (1 : Fin 2) * 32 + 1 * s.val = s.val; rw [e1]; omega
theorem blk4 (c : Dev nD) (t : Fin cfg0.N) (p : Fin 128) (s : Fin 1) :
    iblk0 V c 4 t (ix2 p s) = V c main_v52 (ix2 (row t p) s) := by
  obtain ⟨e0, e1⟩ := idx4 t
  unfold iblk0
  rw [View.read_apply]
  show V c main_v52 _ = V c main_v52 _
  congr 1
  funext a
  apply Fin.ext
  match a with
  | ⟨0, _⟩ => show win0_4.index t (0 : Fin 2) * 128 + 1 * p.val = t.val * 128 + p.val; rw [e0]; omega
  | ⟨1, _⟩ => show win0_4.index t (1 : Fin 2) * 1 + 1 * s.val = s.val; rw [e1]; omega
theorem blk5 (c : Dev nD) (t : Fin cfg0.N) (p : Fin 128) (s : Fin 172) :
    iblk0 V c 5 t (ix2 p s) = V c main_v22 (ix2 (row t p) s) := by
  obtain ⟨e0, e1⟩ := idx5 t
  unfold iblk0
  rw [View.read_apply]
  show V c main_v22 _ = V c main_v22 _
  congr 1
  funext a
  apply Fin.ext
  match a with
  | ⟨0, _⟩ => show win0_5.index t (0 : Fin 2) * 128 + 1 * p.val = t.val * 128 + p.val; rw [e0]; omega
  | ⟨1, _⟩ => show win0_5.index t (1 : Fin 2) * 172 + 1 * s.val = s.val; rw [e1]; omega
theorem blk6 (c : Dev nD) (t : Fin cfg0.N) (u : Fin 1) (k : Fin 100) :
    iblk0 V c 6 t (ix2 u k) = V c main_v44 (ix2 u k) := by
  obtain ⟨e0, e1⟩ := idx6 t
  unfold iblk0
  rw [View.read_apply]
  show V c main_v44 _ = V c main_v44 _
  congr 1
  funext a
  apply Fin.ext
  match a with
  | ⟨0, _⟩ => show win0_6.index t (0 : Fin 2) * 1 + 1 * u.val = u.val; rw [e0]; omega
  | ⟨1, _⟩ => show win0_6.index t (1 : Fin 2) * 100 + 1 * k.val = k.val; rw [e1]; omega
theorem blk7 (c : Dev nD) (t : Fin cfg0.N) (u : Fin 1) (k : Fin 100) :
    iblk0 V c 7 t (ix2 u k) = V c main_v45 (ix2 u k) := by
  obtain ⟨e0, e1⟩ := idx7 t
  unfold iblk0
  rw [View.read_apply]
  show V c main_v45 _ = V c main_v45 _
  congr 1
  funext a
  apply Fin.ext
  match a with
  | ⟨0, _⟩ => show win0_7.index t (0 : Fin 2) * 1 + 1 * u.val = u.val; rw [e0]; omega
  | ⟨1, _⟩ => show win0_7.index t (1 : Fin 2) * 100 + 1 * k.val = k.val; rw [e1]; omega
theorem blk8 (c : Dev nD) (t : Fin cfg0.N) (u : Fin 172) (k : Fin 172) :
    iblk0 V c 8 t (ix2 u k) = V c main_v47 (ix2 u k) := by
  obtain ⟨e0, e1⟩ := idx8 t
  unfold iblk0
  rw [View.read_apply]
  show V c main_v47 _ = V c main_v47 _
  congr 1
  funext a
  apply Fin.ext
  match a with
  | ⟨0, _⟩ => show win0_8.index t (0 : Fin 2) * 172 + 1 * u.val = u.val; rw [e0]; omega
  | ⟨1, _⟩ => show win0_8.index t (1 : Fin 2) * 172 + 1 * k.val = k.val; rw [e1]; omega
theorem blk9 (c : Dev nD) (t : Fin cfg0.N) (u : Fin 172) (k : Fin 172) :
    iblk0 V c 9 t (ix2 u k) = V c main_v48 (ix2 u k) := by
  obtain ⟨e0, e1⟩ := idx9 t
  unfold iblk0
  rw [View.read_apply]
  show V c main_v48 _ = V c main_v48 _
  congr 1
  funext a
  apply Fin.ext
  match a with
  | ⟨0, _⟩ => show win0_9.index t (0 : Fin 2) * 172 + 1 * u.val = u.val; rw [e0]; omega
  | ⟨1, _⟩ => show win0_9.index t (1 : Fin 2) * 172 + 1 * k.val = k.val; rw [e1]; omega
theorem blk10 (c : Dev nD) (t : Fin cfg0.N) (u : Fin 172) (k : Fin 172) :
    iblk0 V c 10 t (ix2 u k) = V c main_v49 (ix2 u k) := by
  obtain ⟨e0, e1⟩ := idx10 t
  unfold iblk0
  rw [View.read_apply]
  show V c main_v49 _ = V c main_v49 _
  congr 1
  funext a
  apply Fin.ext
  match a with
  | ⟨0, _⟩ => show win0_10.index t (0 : Fin 2) * 172 + 1 * u.val = u.val; rw [e0]; omega
  | ⟨1, _⟩ => show win0_10.index t (1 : Fin 2) * 172 + 1 * k.val = k.val; rw [e1]; omega
theorem blk11 (c : Dev nD) (t : Fin cfg0.N) (u : Fin 100) (k : Fin 172) :
    iblk0 V c 11 t (ix2 u k) = V c main_v50 (ix2 u k) := by
  obtain ⟨e0, e1⟩ := idx11 t
  unfold iblk0
  rw [View.read_apply]
  show V c main_v50 _ = V c main_v50 _
  congr 1
  funext a
  apply Fin.ext
  match a with
  | ⟨0, _⟩ => show win0_11.index t (0 : Fin 2) * 100 + 1 * u.val = u.val; rw [e0]; omega
  | ⟨1, _⟩ => show win0_11.index t (1 : Fin 2) * 172 + 1 * k.val = k.val; rw [e1]; omega
theorem blk12 (c : Dev nD) (t : Fin cfg0.N) (u : Fin 1) (k : Fin 172) :
    iblk0 V c 12 t (ix2 u k) = V c main_v51 (ix2 u k) := by
  obtain ⟨e0, e1⟩ := idx12 t
  unfold iblk0
  rw [View.read_apply]
  show V c main_v51 _ = V c main_v51 _
  congr 1
  funext a
  apply Fin.ext
  match a with
  | ⟨0, _⟩ => show win0_12.index t (0 : Fin 2) * 1 + 1 * u.val = u.val; rw [e0]; omega
  | ⟨1, _⟩ => show win0_12.index t (1 : Fin 2) * 172 + 1 * k.val = k.val; rw [e1]; omega

/-- Entry (p, q) of what point `t` stores is entry (128 t + p, q) of the whole-array function. -/
theorem block_eq (c : Dev nD) (t : Fin cfg0.N) (p : Fin 128) (q : Fin 172) :
    Body.blockVal (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) p q
      = Body.arrVal (V c main_v8) (V c main_v15) (V c main_arg5) (V c main_arg7) (V c main_v52) (V c main_v22) (V c main_v44) (V c main_v45) (V c main_v47) (V c main_v48) (V c main_v49) (V c main_v50) (V c main_v51) (row t p) q := by
  unfold Body.blockVal Body.arrVal
  simp only [blk0 V c t, blk1 V c t, blk2 V c t, blk3 V c t, blk4 V c t, blk5 V c t, blk6 V c t, blk7 V c t, blk8 V c t,
    blk9 V c t, blk10 V c t, blk11 V c t, blk12 V c t]

/-- WHAT POINT `t` WRITES BACK is block `t` of the whole-array function of the arrays as the region finds them. -/
theorem flushed_eq (c : Dev nD) (t : Fin cfg0.N) :
    (dat0 V c).flushed 13 t = ((cfg0.win 13).blk t).view.read (Elt Ideal)
      (Body.regionVal (V c main_v8) (V c main_v15) (V c main_arg5) (V c main_arg7) (V c main_v52) (V c main_v22) (V c main_v44) (V c main_v45) (V c main_v47) (V c main_v48) (V c main_v49) (V c main_v50) (V c main_v51)) := by
  show (cfg0.win 13).cut (grid0.coords t) ((dat0 V c).after 13 t) = _
  rw [after0_13]
  unfold out0_13
  rw [View.canon_unit_zero hz2]
  simp only [View.ld_unit_zero (S := S128x32x172) hz3, View.ld_unit_zero (S := S128x32) hz2, View.ld_unit_zero (S := S128x1) hz2, View.ld_unit_zero (S := S128x172) hz2, View.ld_unit_zero (S := S1x100) hz2, View.ld_unit_zero (S := S172x172) hz2, View.ld_unit_zero (S := S100x172) hz2, View.ld_unit_zero (S := S1x172) hz2]
  funext y
  show k0_pay1 (F := Ideal) (k0_pay2 (iblk0 V c 1 t)) (k0_pay3 (iblk0 V c 4 t) (iblk0 V c 3 t) (iblk0 V c 6 t) (iblk0 V c 7 t) (iblk0 V c 2 t))
      (k0_pay4 (iblk0 V c 0 t)) (iblk0 V c 5 t) (iblk0 V c 8 t) (iblk0 V c 9 t) (iblk0 V c 10 t) (iblk0 V c 11 t) (iblk0 V c 12 t) y
    = Body.regionVal (V c main_v8) (V c main_v15) (V c main_arg5) (V c main_arg7) (V c main_v52) (V c main_v22) (V c main_v44) (V c main_v45) (V c main_v47) (V c main_v48) (V c main_v49) (V c main_v50) (V c main_v51) (((cfg0.win 13).blk t).view.emb y)
  refine (Body.stored_at (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) y).trans ?_
  obtain ⟨o0, o1⟩ := idx13 t
  have he : ((cfg0.win 13).blk t).view.emb y = ix2 (row t (y 0)) (y 1) := funext fun a => Fin.ext (by
    match a with
    | ⟨0, _⟩ => show win0_13.index t (0 : Fin 2) * 128 + 1 * (y 0).val = t.val * 128 + (y 0).val; rw [o0]; omega
    | ⟨1, _⟩ => show win0_13.index t (1 : Fin 2) * 172 + 1 * (y 1).val = (y 1).val; rw [o1]; omega)
  rw [he]
  exact block_eq V c t (y 0) (y 1)

/-- An index of the output is in point `t`'s block iff each coordinate is in the block's range on its axis. -/
theorem mem_blk (t : Fin cfg0.N) (i : S8192x172.Idx) :
    i ∈ ((cfg0.win 13).blk t).view.set ↔ ∀ a : Fin 2, win0_13.index t a * S128x172.size a ≤ (i a).val
      ∧ (i a).val < win0_13.index t a * S128x172.size a + S128x172.size a := by
  show i ∈ ((View.whole main_v53).slice (win0_13.rect t)).set ↔ _
  rw [View.set_slice_whole, Rect.mem_set_unit]
  exact Iff.rfl

/-- Row `r` of the output is in the block of point `r / 128`: the 64 blocks cover the array. -/
theorem cover (i : S8192x172.Idx) :
    ∃ t : Fin cfg0.N, (cfg0.win 13).flush t = true ∧ i ∈ ((cfg0.win 13).blk t).view.set := by
  have hN : cfg0.N = 64 := N_0
  have hi0 : (i 0).val < 8192 := (i 0).isLt
  have hi1 : (i 1).val < 172 := (i 1).isLt
  have ht : (i 0).val / 128 < cfg0.N := by omega
  refine ⟨⟨(i 0).val / 128, ht⟩, flush0_13 _, ?_⟩
  rw [mem_blk]
  obtain ⟨o0, o1⟩ := idx13 ⟨(i 0).val / 128, ht⟩
  intro a
  match a with
  | ⟨0, _⟩ =>
    show win0_13.index ⟨(i 0).val / 128, ht⟩ (0 : Fin 2) * 128 ≤ (i 0).val
      ∧ (i 0).val < win0_13.index ⟨(i 0).val / 128, ht⟩ (0 : Fin 2) * 128 + 128
    rw [o0]; show (i 0).val / 128 * 128 ≤ (i 0).val ∧ (i 0).val < (i 0).val / 128 * 128 + 128; omega
  | ⟨1, _⟩ =>
    show win0_13.index ⟨(i 0).val / 128, ht⟩ (1 : Fin 2) * 172 ≤ (i 1).val
      ∧ (i 1).val < win0_13.index ⟨(i 0).val / 128, ht⟩ (1 : Fin 2) * 172 + 172
    rw [o1]; omega

/-- THE OUTPUT ARRAY after the region: the whole-array function of the arrays as the region finds them. -/
theorem final (c : Dev nD) : (dat0 V c).arrAt 13 cfg0.N
    = Body.regionVal (V c main_v8) (V c main_v15) (V c main_arg5) (V c main_arg7) (V c main_v52) (V c main_v22) (V c main_v44) (V c main_v45) (V c main_v47) (V c main_v48) (V c main_v49) (V c main_v50) (V c main_v51) :=
  (dat0 V c).arrAt_eq_of_cover 13 _ (fun t _ => flushed_eq V c t) (fun i => cover i)

end Cert.KernelIdeal.Region0

end
-- ==== Proof.Region1.lean ====
/-
  Region 1 of the kernel program (the destination side): its output array is `Body.regionVal` of the thirteen arrays it reads.

  The grid has 64 points; point `t` reads rows `128 t … 128 t + 127` of the six row-blocked arrays and the whole of
  the seven small ones, and writes rows `128 t … 128 t + 127` of the output. So what point `t` writes back is block
  `t` of ONE whole-array function of the arrays as the region finds them, and the 64 blocks cover the output.
-/
import proofs.«118674_j90735479095614_2_alg».proof.Proof.Gen.KernelIdeal.Frame
import proofs.«118674_j90735479095614_2_alg».proof.Proof.Body
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx Cert.Side
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Row `128 t + p` of the whole arrays: row `p` of point `t`'s blocks. -/
def row (t : Fin cfg1.N) (p : Fin 128) : Fin 8192 :=
  ⟨t.val * 128 + p.val, by have := t.isLt; have hN : cfg1.N = 64 := N_1; have := p.isLt; omega⟩

/-! ## The index maps, decided over the 64 points: a row-blocked window is at block `t`, a small one at block 0 -/

theorem idx0 : ∀ t : Fin cfg1.N, win1_0.index t (0 : Fin 3) = t.val ∧ win1_0.index t (1 : Fin 3) = 0 ∧ win1_0.index t (2 : Fin 3) = 0 :=
  (by decide +kernel : ∀ t : Fin grid1.N, _)
theorem idx1 : ∀ t : Fin cfg1.N, win1_1.index t (0 : Fin 3) = t.val ∧ win1_1.index t (1 : Fin 3) = 0 ∧ win1_1.index t (2 : Fin 3) = 0 :=
  (by decide +kernel : ∀ t : Fin grid1.N, _)
theorem idx2 : ∀ t : Fin cfg1.N, win1_2.index t (0 : Fin 2) = t.val ∧ win1_2.index t (1 : Fin 2) = 0 :=
  (by decide +kernel : ∀ t : Fin grid1.N, _)
theorem idx3 : ∀ t : Fin cfg1.N, win1_3.index t (0 : Fin 2) = t.val ∧ win1_3.index t (1 : Fin 2) = 0 :=
  (by decide +kernel : ∀ t : Fin grid1.N, _)
theorem idx4 : ∀ t : Fin cfg1.N, win1_4.index t (0 : Fin 2) = t.val ∧ win1_4.index t (1 : Fin 2) = 0 :=
  (by decide +kernel : ∀ t : Fin grid1.N, _)
theorem idx5 : ∀ t : Fin cfg1.N, win1_5.index t (0 : Fin 2) = t.val ∧ win1_5.index t (1 : Fin 2) = 0 :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)
theorem idx7 : ∀ t : Fin cfg1.N, win1_7.index t (0 : Fin 2) = 0 ∧ win1_7.index t (1 : Fin 2) = 0 :=
  (by decide +kernel : ∀ t : Fin grid1.N, _)
theorem idx8 : ∀ t : Fin cfg1.N, win1_8.index t (0 : Fin 2) = 0 ∧ win1_8.index t (1 : Fin 2) = 0 :=
  (by decide +kernel : ∀ t : Fin grid1.N, _)
theorem idx9 : ∀ t : Fin cfg1.N, win1_9.index t (0 : Fin 2) = 0 ∧ win1_9.index t (1 : Fin 2) = 0 :=
  (by decide +kernel : ∀ t : Fin grid1.N, _)
theorem idx10 : ∀ t : Fin cfg1.N, win1_10.index t (0 : Fin 2) = 0 ∧ win1_10.index t (1 : Fin 2) = 0 :=
  (by decide +kernel : ∀ t : Fin grid1.N, _)
theorem idx11 : ∀ t : Fin cfg1.N, win1_11.index t (0 : Fin 2) = 0 ∧ win1_11.index t (1 : Fin 2) = 0 :=
  (by decide +kernel : ∀ t : Fin grid1.N, _)
theorem idx12 : ∀ t : Fin cfg1.N, win1_12.index t (0 : Fin 2) = 0 ∧ win1_12.index t (1 : Fin 2) = 0 :=
  (by decide +kernel : ∀ t : Fin grid1.N, _)
theorem idx13 : ∀ t : Fin cfg1.N, win1_13.index t (0 : Fin 2) = t.val ∧ win1_13.index t (1 : Fin 2) = 0 :=
  (by decide +kernel : ∀ t : Fin grid1.N, _)

/-! ## Each input block read as rows of its array -/

theorem blk0 (c : Dev nD) (t : Fin cfg1.N) (p : Fin 128) (s : Fin 32) (k : Fin 172) :
    iblk1 V c 0 t (ix3 p s k) = V c main_v29 (ix3 (row t p) s k) := by
  obtain ⟨e0, e1, e2⟩ := idx0 t
  unfold iblk1
  rw [View.read_apply]
  show V c main_v29 _ = V c main_v29 _
  congr 1
  funext a
  apply Fin.ext
  match a with
  | ⟨0, _⟩ => show win1_0.index t (0 : Fin 3) * 128 + 1 * p.val = t.val * 128 + p.val; rw [e0]; omega
  | ⟨1, _⟩ => show win1_0.index t (1 : Fin 3) * 32 + 1 * s.val = s.val; rw [e1]; omega
  | ⟨2, _⟩ => show win1_0.index t (2 : Fin 3) * 172 + 1 * k.val = k.val; rw [e2]; omega
theorem blk1 (c : Dev nD) (t : Fin cfg1.N) (p : Fin 128) (s : Fin 32) (k : Fin 172) :
    iblk1 V c 1 t (ix3 p s k) = V c main_v36 (ix3 (row t p) s k) := by
  obtain ⟨e0, e1, e2⟩ := idx1 t
  unfold iblk1
  rw [View.read_apply]
  show V c main_v36 _ = V c main_v36 _
  congr 1
  funext a
  apply Fin.ext
  match a with
  | ⟨0, _⟩ => show win1_1.index t (0 : Fin 3) * 128 + 1 * p.val = t.val * 128 + p.val; rw [e0]; omega
  | ⟨1, _⟩ => show win1_1.index t (1 : Fin 3) * 32 + 1 * s.val = s.val; rw [e1]; omega
  | ⟨2, _⟩ => show win1_1.index t (2 : Fin 3) * 172 + 1 * k.val = k.val; rw [e2]; omega
theorem blk2 (c : Dev nD) (t : Fin cfg1.N) (p : Fin 128) (s : Fin 32) :
    iblk1 V c 2 t (ix2 p s) = V c main_arg8 (ix2 (row t p) s) := by
  obtain ⟨e0, e1⟩ := idx2 t
  unfold iblk1
  rw [View.read_apply]
  show V c main_arg8 _ = V c main_arg8 _
  congr 1
  funext a
  apply Fin.ext
  match a with
  | ⟨0, _⟩ => show win1_2.index t (0 : Fin 2) * 128 + 1 * p.val = t.val * 128 + p.val; rw [e0]; omega
  | ⟨1, _⟩ => show win1_2.index t (1 : Fin 2) * 32 + 1 * s.val = s.val; rw [e1]; omega
theorem blk3 (c : Dev nD) (t : Fin cfg1.N) (p : Fin 128) (s : Fin 32) :
    iblk1 V c 3 t (ix2 p s) = V c main_arg10 (ix2 (row t p) s) := by
  obtain ⟨e0, e1⟩ := idx3 t
  unfold iblk1
  rw [View.read_apply]
  show V c main_arg10 _ = V c main_arg10 _
  congr 1
  funext a
  apply Fin.ext
  match a with
  | ⟨0, _⟩ => show win1_3.index t (0 : Fin 2) * 128 + 1 * p.val = t.val * 128 + p.val; rw [e0]; omega
  | ⟨1, _⟩ => show win1_3.index t (1 : Fin 2) * 32 + 1 * s.val = s.val; rw [e1]; omega
theorem blk4 (c : Dev nD) (t : Fin cfg1.N) (p : Fin 128) (s : Fin 1) :
    iblk1 V c 4 t (ix2 p s) = V c main_v52 (ix2 (row t p) s) := by
  obtain ⟨e0, e1⟩ := idx4 t
  unfold iblk1
  rw [View.read_apply]
  show V c main_v52 _ = V c main_v52 _
  congr 1
  funext a
  apply Fin.ext
  match a with
  | ⟨0, _⟩ => show win1_4.index t (0 : Fin 2) * 128 + 1 * p.val = t.val * 128 + p.val; rw [e0]; omega
  | ⟨1, _⟩ => show win1_4.index t (1 : Fin 2) * 1 + 1 * s.val = s.val; rw [e1]; omega
theorem blk5 (c : Dev nD) (t : Fin cfg1.N) (p : Fin 128) (s : Fin 172) :
    iblk1 V c 5 t (ix2 p s) = V c main_v43 (ix2 (row t p) s) := by
  obtain ⟨e0, e1⟩ := idx5 t
  unfold iblk1
  rw [View.read_apply]
  show V c main_v43 _ = V c main_v43 _
  congr 1
  funext a
  apply Fin.ext
  match a with
  | ⟨0, _⟩ => show win1_5.index t (0 : Fin 2) * 128 + 1 * p.val = t.val * 128 + p.val; rw [e0]; omega
  | ⟨1, _⟩ => show win1_5.index t (1 : Fin 2) * 172 + 1 * s.val = s.val; rw [e1]; omega
theorem blk6 (c : Dev nD) (t : Fin cfg1.N) (u : Fin 1) (k : Fin 100) :
    iblk1 V c 6 t (ix2 u k) = V c main_v44 (ix2 u k) := by
  obtain ⟨e0, e1⟩ := idx6 t
  unfold iblk1
  rw [View.read_apply]
  show V c main_v44 _ = V c main_v44 _
  congr 1
  funext a
  apply Fin.ext
  match a with
  | ⟨0, _⟩ => show win1_6.index t (0 : Fin 2) * 1 + 1 * u.val = u.val; rw [e0]; omega
  | ⟨1, _⟩ => show win1_6.index t (1 : Fin 2) * 100 + 1 * k.val = k.val; rw [e1]; omega
theorem blk7 (c : Dev nD) (t : Fin cfg1.N) (u : Fin 1) (k : Fin 100) :
    iblk1 V c 7 t (ix2 u k) = V c main_v45 (ix2 u k) := by
  obtain ⟨e0, e1⟩ := idx7 t
  unfold iblk1
  rw [View.read_apply]
  show V c main_v45 _ = V c main_v45 _
  congr 1
  funext a
  apply Fin.ext
  match a with
  | ⟨0, _⟩ => show win1_7.index t (0 : Fin 2) * 1 + 1 * u.val = u.val; rw [e0]; omega
  | ⟨1, _⟩ => show win1_7.index t (1 : Fin 2) * 100 + 1 * k.val = k.val; rw [e1]; omega
theorem blk8 (c : Dev nD) (t : Fin cfg1.N) (u : Fin 172) (k : Fin 172) :
    iblk1 V c 8 t (ix2 u k) = V c main_v47 (ix2 u k) := by
  obtain ⟨e0, e1⟩ := idx8 t
  unfold iblk1
  rw [View.read_apply]
  show V c main_v47 _ = V c main_v47 _
  congr 1
  funext a
  apply Fin.ext
  match a with
  | ⟨0, _⟩ => show win1_8.index t (0 : Fin 2) * 172 + 1 * u.val = u.val; rw [e0]; omega
  | ⟨1, _⟩ => show win1_8.index t (1 : Fin 2) * 172 + 1 * k.val = k.val; rw [e1]; omega
theorem blk9 (c : Dev nD) (t : Fin cfg1.N) (u : Fin 172) (k : Fin 172) :
    iblk1 V c 9 t (ix2 u k) = V c main_v48 (ix2 u k) := by
  obtain ⟨e0, e1⟩ := idx9 t
  unfold iblk1
  rw [View.read_apply]
  show V c main_v48 _ = V c main_v48 _
  congr 1
  funext a
  apply Fin.ext
  match a with
  | ⟨0, _⟩ => show win1_9.index t (0 : Fin 2) * 172 + 1 * u.val = u.val; rw [e0]; omega
  | ⟨1, _⟩ => show win1_9.index t (1 : Fin 2) * 172 + 1 * k.val = k.val; rw [e1]; omega
theorem blk10 (c : Dev nD) (t : Fin cfg1.N) (u : Fin 172) (k : Fin 172) :
    iblk1 V c 10 t (ix2 u k) = V c main_v49 (ix2 u k) := by
  obtain ⟨e0, e1⟩ := idx10 t
  unfold iblk1
  rw [View.read_apply]
  show V c main_v49 _ = V c main_v49 _
  congr 1
  funext a
  apply Fin.ext
  match a with
  | ⟨0, _⟩ => show win1_10.index t (0 : Fin 2) * 172 + 1 * u.val = u.val; rw [e0]; omega
  | ⟨1, _⟩ => show win1_10.index t (1 : Fin 2) * 172 + 1 * k.val = k.val; rw [e1]; omega
theorem blk11 (c : Dev nD) (t : Fin cfg1.N) (u : Fin 100) (k : Fin 172) :
    iblk1 V c 11 t (ix2 u k) = V c main_v50 (ix2 u k) := by
  obtain ⟨e0, e1⟩ := idx11 t
  unfold iblk1
  rw [View.read_apply]
  show V c main_v50 _ = V c main_v50 _
  congr 1
  funext a
  apply Fin.ext
  match a with
  | ⟨0, _⟩ => show win1_11.index t (0 : Fin 2) * 100 + 1 * u.val = u.val; rw [e0]; omega
  | ⟨1, _⟩ => show win1_11.index t (1 : Fin 2) * 172 + 1 * k.val = k.val; rw [e1]; omega
theorem blk12 (c : Dev nD) (t : Fin cfg1.N) (u : Fin 1) (k : Fin 172) :
    iblk1 V c 12 t (ix2 u k) = V c main_v51 (ix2 u k) := by
  obtain ⟨e0, e1⟩ := idx12 t
  unfold iblk1
  rw [View.read_apply]
  show V c main_v51 _ = V c main_v51 _
  congr 1
  funext a
  apply Fin.ext
  match a with
  | ⟨0, _⟩ => show win1_12.index t (0 : Fin 2) * 1 + 1 * u.val = u.val; rw [e0]; omega
  | ⟨1, _⟩ => show win1_12.index t (1 : Fin 2) * 172 + 1 * k.val = k.val; rw [e1]; omega

/-- Entry (p, q) of what point `t` stores is entry (128 t + p, q) of the whole-array function. -/
theorem block_eq (c : Dev nD) (t : Fin cfg1.N) (p : Fin 128) (q : Fin 172) :
    Body.blockVal (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) p q
      = Body.arrVal (V c main_v29) (V c main_v36) (V c main_arg8) (V c main_arg10) (V c main_v52) (V c main_v43) (V c main_v44) (V c main_v45) (V c main_v47) (V c main_v48) (V c main_v49) (V c main_v50) (V c main_v51) (row t p) q := by
  unfold Body.blockVal Body.arrVal
  simp only [blk0 V c t, blk1 V c t, blk2 V c t, blk3 V c t, blk4 V c t, blk5 V c t, blk6 V c t, blk7 V c t, blk8 V c t,
    blk9 V c t, blk10 V c t, blk11 V c t, blk12 V c t]

/-- WHAT POINT `t` WRITES BACK is block `t` of the whole-array function of the arrays as the region finds them. -/
theorem flushed_eq (c : Dev nD) (t : Fin cfg1.N) :
    (dat1 V c).flushed 13 t = ((cfg1.win 13).blk t).view.read (Elt Ideal)
      (Body.regionVal (V c main_v29) (V c main_v36) (V c main_arg8) (V c main_arg10) (V c main_v52) (V c main_v43) (V c main_v44) (V c main_v45) (V c main_v47) (V c main_v48) (V c main_v49) (V c main_v50) (V c main_v51)) := by
  show (cfg1.win 13).cut (grid1.coords t) ((dat1 V c).after 13 t) = _
  rw [after1_13]
  unfold out1_13
  rw [View.canon_unit_zero hz2]
  simp only [View.ld_unit_zero (S := S128x32x172) hz3, View.ld_unit_zero (S := S128x32) hz2, View.ld_unit_zero (S := S128x1) hz2, View.ld_unit_zero (S := S128x172) hz2, View.ld_unit_zero (S := S1x100) hz2, View.ld_unit_zero (S := S172x172) hz2, View.ld_unit_zero (S := S100x172) hz2, View.ld_unit_zero (S := S1x172) hz2]
  funext y
  show k0_pay1 (F := Ideal) (k0_pay2 (iblk1 V c 1 t)) (k0_pay3 (iblk1 V c 4 t) (iblk1 V c 3 t) (iblk1 V c 6 t) (iblk1 V c 7 t) (iblk1 V c 2 t))
      (k0_pay4 (iblk1 V c 0 t)) (iblk1 V c 5 t) (iblk1 V c 8 t) (iblk1 V c 9 t) (iblk1 V c 10 t) (iblk1 V c 11 t) (iblk1 V c 12 t) y
    = Body.regionVal (V c main_v29) (V c main_v36) (V c main_arg8) (V c main_arg10) (V c main_v52) (V c main_v43) (V c main_v44) (V c main_v45) (V c main_v47) (V c main_v48) (V c main_v49) (V c main_v50) (V c main_v51) (((cfg1.win 13).blk t).view.emb y)
  refine (Body.stored_at (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) y).trans ?_
  obtain ⟨o0, o1⟩ := idx13 t
  have he : ((cfg1.win 13).blk t).view.emb y = ix2 (row t (y 0)) (y 1) := funext fun a => Fin.ext (by
    match a with
    | ⟨0, _⟩ => show win1_13.index t (0 : Fin 2) * 128 + 1 * (y 0).val = t.val * 128 + (y 0).val; rw [o0]; omega
    | ⟨1, _⟩ => show win1_13.index t (1 : Fin 2) * 172 + 1 * (y 1).val = (y 1).val; rw [o1]; omega)
  rw [he]
  exact block_eq V c t (y 0) (y 1)

/-- An index of the output is in point `t`'s block iff each coordinate is in the block's range on its axis. -/
theorem mem_blk (t : Fin cfg1.N) (i : S8192x172.Idx) :
    i ∈ ((cfg1.win 13).blk t).view.set ↔ ∀ a : Fin 2, win1_13.index t a * S128x172.size a ≤ (i a).val
      ∧ (i a).val < win1_13.index t a * S128x172.size a + S128x172.size a := by
  show i ∈ ((View.whole main_v54).slice (win1_13.rect t)).set ↔ _
  rw [View.set_slice_whole, Rect.mem_set_unit]
  exact Iff.rfl

/-- Row `r` of the output is in the block of point `r / 128`: the 64 blocks cover the array. -/
theorem cover (i : S8192x172.Idx) :
    ∃ t : Fin cfg1.N, (cfg1.win 13).flush t = true ∧ i ∈ ((cfg1.win 13).blk t).view.set := by
  have hN : cfg1.N = 64 := N_1
  have hi0 : (i 0).val < 8192 := (i 0).isLt
  have hi1 : (i 1).val < 172 := (i 1).isLt
  have ht : (i 0).val / 128 < cfg1.N := by omega
  refine ⟨⟨(i 0).val / 128, ht⟩, flush1_13 _, ?_⟩
  rw [mem_blk]
  obtain ⟨o0, o1⟩ := idx13 ⟨(i 0).val / 128, ht⟩
  intro a
  match a with
  | ⟨0, _⟩ =>
    show win1_13.index ⟨(i 0).val / 128, ht⟩ (0 : Fin 2) * 128 ≤ (i 0).val
      ∧ (i 0).val < win1_13.index ⟨(i 0).val / 128, ht⟩ (0 : Fin 2) * 128 + 128
    rw [o0]; show (i 0).val / 128 * 128 ≤ (i 0).val ∧ (i 0).val < (i 0).val / 128 * 128 + 128; omega
  | ⟨1, _⟩ =>
    show win1_13.index ⟨(i 0).val / 128, ht⟩ (1 : Fin 2) * 172 ≤ (i 1).val
      ∧ (i 1).val < win1_13.index ⟨(i 0).val / 128, ht⟩ (1 : Fin 2) * 172 + 172
    rw [o1]; omega

/-- THE OUTPUT ARRAY after the region: the whole-array function of the arrays as the region finds them. -/
theorem final (c : Dev nD) : (dat1 V c).arrAt 13 cfg1.N
    = Body.regionVal (V c main_v29) (V c main_v36) (V c main_arg8) (V c main_arg10) (V c main_v52) (V c main_v43) (V c main_v44) (V c main_v45) (V c main_v47) (V c main_v48) (V c main_v49) (V c main_v50) (V c main_v51) :=
  (dat1 V c).arrAt_eq_of_cover 13 _ (fun t _ => flushed_eq V c t) (fun i => cover i)

end Cert.KernelIdeal.Region1

end
-- ==== Proof.HostArrays.lean ====
/-
  What the two regions of the kernel program find in the buffers they read, as terms of the arguments.

  Before the first region the host side casts the two feature tables and the weight matrix to the narrower float
  format (over the extended reals the same numbers), gathers table rows at the ids (a negative id counting from
  the end), cuts the weight matrix into its four row ranges, and reshapes the
  small vectors into rows and a column. The first region writes only its own output, so the second region finds
  every array it reads exactly as the host operations left it.
-/
import proofs.«118674_j90735479095614_2_alg».proof.Proof.Gen.KernelIdeal.Frame
import Idealize.ShloMosaic.Lib.StableHlo.Run
import Idealize.ShloMosaic.PureOps.Ideal

noncomputable section

namespace Cert.KernelIdeal.HostArrays

open Cert.KernelIdeal Cert.KernelIdeal.Gen
open Idealize.ShloMosaic Idealize.ShloMosaic.TcCoe Idealize.SL.Sem Idealize.ShloMosaic.StableHlo
open Idealize.ShloMosaic.Pipeline (Dat)

/-- The index normalisation of a [8192, 32] id array against a table of `n` rows (a negative id counts from the
    end), as the start-index array of the row gather. -/
def starts3 (ids : (⟨S8192x32, .i32⟩ : BufTy).Contents (Elt Ideal)) (n : BitVec 32) :
    (⟨S8192x32x1, .i32⟩ : BufTy).Contents (Elt Ideal) :=
  broadcastInDim S8192x32x1 ![0, 1] bcast_S8192x32_S8192x32x1_0_1
    (select (cmpi .slt ids (broadcastInDim S8192x32 ![] bcast_S_S8192x32 (constantI S_ 32 0#32)))
      (addi ids (broadcastInDim S8192x32 ![] bcast_S_S8192x32 (constantI S_ 32 n))) ids)

/-- The same for a [8192] id array against the 200000-row node table. -/
def starts2 (ids : (⟨S8192, .i32⟩ : BufTy).Contents (Elt Ideal)) : (⟨S8192x1, .i32⟩ : BufTy).Contents (Elt Ideal) :=
  broadcastInDim S8192x1 ![0] bcast_S8192_S8192x1_0
    (select (cmpi .slt ids (broadcastInDim S8192 ![] bcast_S_S8192 (constantI S_ 32 0#32)))
      (addi ids (broadcastInDim S8192 ![] bcast_S_S8192 (constantI S_ 32 200000#32))) ids)

variable (m : (ℓ : Loc nD τ sig) → Buf (Elt Ideal) ℓ) (ρ : Dev nD → PrngReg)

/-! ## After the host operations -/

set_option maxRecDepth 8192 in
set_option maxHeartbeats 4000000 in
/-- The source side's neighbour node features: rows of the node table at the normalised neighbour ids. -/
theorem at_v8 (c : Dev nD) : (W1 m ρ c (Proc.devRef .tc main_v8) : (⟨S8192x32x172, .bf16⟩ : BufTy).Contents (Elt Ideal))
    = Host.gather gather_S200000x172_S8192x32x1_S8192x32x172_2_0_n_n_0_2_1172 (truncf (F := Ideal) .bf16 ((m ((c : Thread nD τ).loc main_arg0)) : FVec Ideal S200000x172 .f32) bitsLt_bf16_f32) (starts3 (m ((c : Thread nD τ).loc main_arg5)) 200000#32) := by
  show StableHlo.after hostOps0 (W0 m ρ c) (Proc.devRef .tc main_v8) = _
  after_results_simp <;> rfl

set_option maxRecDepth 8192 in
set_option maxHeartbeats 4000000 in
/-- The source side's edge features: rows of the edge table at the normalised edge ids. -/
theorem at_v15 (c : Dev nD) : (W1 m ρ c (Proc.devRef .tc main_v15) : (⟨S8192x32x172, .bf16⟩ : BufTy).Contents (Elt Ideal))
    = Host.gather gather_S500000x172_S8192x32x1_S8192x32x172_2_0_n_n_0_2_1172 (truncf (F := Ideal) .bf16 ((m ((c : Thread nD τ).loc main_arg1)) : FVec Ideal S500000x172 .f32) bitsLt_bf16_f32) (starts3 (m ((c : Thread nD τ).loc main_arg6)) 500000#32) := by
  show StableHlo.after hostOps0 (W0 m ρ c) (Proc.devRef .tc main_v15) = _
  after_results_simp <;> rfl

set_option maxRecDepth 8192 in
set_option maxHeartbeats 4000000 in
/-- The source nodes' own features. -/
theorem at_v22 (c : Dev nD) : (W1 m ρ c (Proc.devRef .tc main_v22) : (⟨S8192x172, .bf16⟩ : BufTy).Contents (Elt Ideal))
    = Host.gather gather_S200000x172_S8192x1_S8192x172_1_0_n_n_0_1_1172 (truncf (F := Ideal) .bf16 ((m ((c : Thread nD τ).loc main_arg0)) : FVec Ideal S200000x172 .f32) bitsLt_bf16_f32) (starts2 (m ((c : Thread nD τ).loc main_arg2))) := by
  show StableHlo.after hostOps0 (W0 m ρ c) (Proc.devRef .tc main_v22) = _
  after_results_simp <;> rfl

set_option maxRecDepth 8192 in
set_option maxHeartbeats 4000000 in
/-- The destination side's neighbour node features. -/
theorem at_v29 (c : Dev nD) : (W1 m ρ c (Proc.devRef .tc main_v29) : (⟨S8192x32x172, .bf16⟩ : BufTy).Contents (Elt Ideal))
    = Host.gather gather_S200000x172_S8192x32x1_S8192x32x172_2_0_n_n_0_2_1172 (truncf (F := Ideal) .bf16 ((m ((c : Thread nD τ).loc main_arg0)) : FVec Ideal S200000x172 .f32) bitsLt_bf16_f32) (starts3 (m ((c : Thread nD τ).loc main_arg8)) 200000#32) := by
  show StableHlo.after hostOps0 (W0 m ρ c) (Proc.devRef .tc main_v29) = _
  after_results_simp <;> rfl

set_option maxRecDepth 8192 in
set_option maxHeartbeats 4000000 in
/-- The destination side's edge features. -/
theorem at_v36 (c : Dev nD) : (W1 m ρ c (Proc.devRef .tc main_v36) : (⟨S8192x32x172, .bf16⟩ : BufTy).Contents (Elt Ideal))
    = Host.gather gather_S500000x172_S8192x32x1_S8192x32x172_2_0_n_n_0_2_1172 (truncf (F := Ideal) .bf16 ((m ((c : Thread nD τ).loc main_arg1)) : FVec Ideal S500000x172 .f32) bitsLt_bf16_f32) (starts3 (m ((c : Thread nD τ).loc main_arg9)) 500000#32) := by
  show StableHlo.after hostOps0 (W0 m ρ c) (Proc.devRef .tc main_v36) = _
  after_results_simp <;> rfl

set_option maxRecDepth 8192 in
set_option maxHeartbeats 4000000 in
/-- The destination nodes' own features. -/
theorem at_v43 (c : Dev nD) : (W1 m ρ c (Proc.devRef .tc main_v43) : (⟨S8192x172, .bf16⟩ : BufTy).Contents (Elt Ideal))
    = Host.gather gather_S200000x172_S8192x1_S8192x172_1_0_n_n_0_1_1172 (truncf (F := Ideal) .bf16 ((m ((c : Thread nD τ).loc main_arg0)) : FVec Ideal S200000x172 .f32) bitsLt_bf16_f32) (starts2 (m ((c : Thread nD τ).loc main_arg3))) := by
  show StableHlo.after hostOps0 (W0 m ρ c) (Proc.devRef .tc main_v43) = _
  after_results_simp <;> rfl

set_option maxRecDepth 8192 in
set_option maxHeartbeats 4000000 in
/-- The time weights as one row. -/
theorem at_v44 (c : Dev nD) : (W1 m ρ c (Proc.devRef .tc main_v44) : (⟨S1x100, .f32⟩ : BufTy).Contents (Elt Ideal))
    = shapeCast S1x100 ((m ((c : Thread nD τ).loc main_arg11)) : FVec Ideal S100 .f32) shapeCasts_S100_S1x100 := by
  show StableHlo.after hostOps0 (W0 m ρ c) (Proc.devRef .tc main_v44) = _
  after_results_simp <;> rfl

set_option maxRecDepth 8192 in
set_option maxHeartbeats 4000000 in
/-- The time offsets as one row. -/
theorem at_v45 (c : Dev nD) : (W1 m ρ c (Proc.devRef .tc main_v45) : (⟨S1x100, .f32⟩ : BufTy).Contents (Elt Ideal))
    = shapeCast S1x100 ((m ((c : Thread nD τ).loc main_arg12)) : FVec Ideal S100 .f32) shapeCasts_S100_S1x100 := by
  show StableHlo.after hostOps0 (W0 m ρ c) (Proc.devRef .tc main_v45) = _
  after_results_simp <;> rfl

set_option maxRecDepth 8192 in
set_option maxHeartbeats 4000000 in
/-- Rows 0 … 171 of the weight matrix. -/
theorem at_v47 (c : Dev nD) : (W1 m ρ c (Proc.devRef .tc main_v47) : (⟨S172x172, .bf16⟩ : BufTy).Contents (Elt Ideal))
    = extractStridedSlice S172x172 ![0, 0] (truncf (F := Ideal) .bf16 ((m ((c : Thread nD τ).loc main_arg13)) : FVec Ideal S616x172 .f32) bitsLt_bf16_f32) slices_S616x172_S172x172_0_0 := by
  show StableHlo.after hostOps0 (W0 m ρ c) (Proc.devRef .tc main_v47) = _
  after_results_simp <;> rfl

set_option maxRecDepth 8192 in
set_option maxHeartbeats 4000000 in
/-- Rows 172 … 343 of the weight matrix. -/
theorem at_v48 (c : Dev nD) : (W1 m ρ c (Proc.devRef .tc main_v48) : (⟨S172x172, .bf16⟩ : BufTy).Contents (Elt Ideal))
    = extractStridedSlice S172x172 ![172, 0] (truncf (F := Ideal) .bf16 ((m ((c : Thread nD τ).loc main_arg13)) : FVec Ideal S616x172 .f32) bitsLt_bf16_f32) slices_S616x172_S172x172_172_0 := by
  show StableHlo.after hostOps0 (W0 m ρ c) (Proc.devRef .tc main_v48) = _
  after_results_simp <;> rfl

set_option maxRecDepth 8192 in
set_option maxHeartbeats 4000000 in
/-- Rows 344 … 515 of the weight matrix. -/
theorem at_v49 (c : Dev nD) : (W1 m ρ c (Proc.devRef .tc main_v49) : (⟨S172x172, .bf16⟩ : BufTy).Contents (Elt Ideal))
    = extractStridedSlice S172x172 ![344, 0] (truncf (F := Ideal) .bf16 ((m ((c : Thread nD τ).loc main_arg13)) : FVec Ideal S616x172 .f32) bitsLt_bf16_f32) slices_S616x172_S172x172_344_0 := by
  show StableHlo.after hostOps0 (W0 m ρ c) (Proc.devRef .tc main_v49) = _
  after_results_simp <;> rfl

set_option maxRecDepth 8192 in
set_option maxHeartbeats 4000000 in
/-- Rows 516 … 615 of the weight matrix. -/
theorem at_v50 (c : Dev nD) : (W1 m ρ c (Proc.devRef .tc main_v50) : (⟨S100x172, .bf16⟩ : BufTy).Contents (Elt Ideal))
    = extractStridedSlice S100x172 ![516, 0] (truncf (F := Ideal) .bf16 ((m ((c : Thread nD τ).loc main_arg13)) : FVec Ideal S616x172 .f32) bitsLt_bf16_f32) slices_S616x172_S100x172_516_0 := by
  show StableHlo.after hostOps0 (W0 m ρ c) (Proc.devRef .tc main_v50) = _
  after_results_simp <;> rfl

set_option maxRecDepth 8192 in
set_option maxHeartbeats 4000000 in
/-- The bias as one row. -/
theorem at_v51 (c : Dev nD) : (W1 m ρ c (Proc.devRef .tc main_v51) : (⟨S1x172, .f32⟩ : BufTy).Contents (Elt Ideal))
    = shapeCast S1x172 ((m ((c : Thread nD τ).loc main_arg14)) : FVec Ideal S172 .f32) shapeCasts_S172_S1x172 := by
  show StableHlo.after hostOps0 (W0 m ρ c) (Proc.devRef .tc main_v51) = _
  after_results_simp <;> rfl

set_option maxRecDepth 8192 in
set_option maxHeartbeats 4000000 in
/-- The interaction times as one column. -/
theorem at_v52 (c : Dev nD) : (W1 m ρ c (Proc.devRef .tc main_v52) : (⟨S8192x1, .f32⟩ : BufTy).Contents (Elt Ideal))
    = shapeCast S8192x1 ((m ((c : Thread nD τ).loc main_arg4)) : FVec Ideal S8192 .f32) shapeCasts_S8192_S8192x1 := by
  show StableHlo.after hostOps0 (W0 m ρ c) (Proc.devRef .tc main_v52) = _
  after_results_simp <;> rfl

set_option maxRecDepth 8192 in
set_option maxHeartbeats 4000000 in
/-- An argument no host operation writes. -/
theorem at_arg5 (c : Dev nD) : (W1 m ρ c (Proc.devRef .tc main_arg5) : (⟨S8192x32, .i32⟩ : BufTy).Contents (Elt Ideal))
    = (m ((c : Thread nD τ).loc main_arg5)) := by
  show StableHlo.after hostOps0 (W0 m ρ c) (Proc.devRef .tc main_arg5) = _
  after_results_simp <;> rfl

set_option maxRecDepth 8192 in
set_option maxHeartbeats 4000000 in
/-- An argument no host operation writes. -/
theorem at_arg7 (c : Dev nD) : (W1 m ρ c (Proc.devRef .tc main_arg7) : (⟨S8192x32, .f32⟩ : BufTy).Contents (Elt Ideal))
    = (m ((c : Thread nD τ).loc main_arg7)) := by
  show StableHlo.after hostOps0 (W0 m ρ c) (Proc.devRef .tc main_arg7) = _
  after_results_simp <;> rfl

set_option maxRecDepth 8192 in
set_option maxHeartbeats 4000000 in
/-- An argument no host operation writes. -/
theorem at_arg8 (c : Dev nD) : (W1 m ρ c (Proc.devRef .tc main_arg8) : (⟨S8192x32, .i32⟩ : BufTy).Contents (Elt Ideal))
    = (m ((c : Thread nD τ).loc main_arg8)) := by
  show StableHlo.after hostOps0 (W0 m ρ c) (Proc.devRef .tc main_arg8) = _
  after_results_simp <;> rfl

set_option maxRecDepth 8192 in
set_option maxHeartbeats 4000000 in
/-- An argument no host operation writes. -/
theorem at_arg10 (c : Dev nD) : (W1 m ρ c (Proc.devRef .tc main_arg10) : (⟨S8192x32, .f32⟩ : BufTy).Contents (Elt Ideal))
    = (m ((c : Thread nD τ).loc main_arg10)) := by
  show StableHlo.after hostOps0 (W0 m ρ c) (Proc.devRef .tc main_arg10) = _
  after_results_simp <;> rfl

/-! ## The second region finds them as the first did -/

theorem same_v29 (c : Dev nD) : W2 m ρ c (Proc.devRef .tc main_v29) = W1 m ρ c (Proc.devRef .tc main_v29) :=
  W2_of_ne m ρ c main_v29 (by decide)
theorem same_v36 (c : Dev nD) : W2 m ρ c (Proc.devRef .tc main_v36) = W1 m ρ c (Proc.devRef .tc main_v36) :=
  W2_of_ne m ρ c main_v36 (by decide)
theorem same_arg8 (c : Dev nD) : W2 m ρ c (Proc.devRef .tc main_arg8) = W1 m ρ c (Proc.devRef .tc main_arg8) :=
  W2_of_ne m ρ c main_arg8 (by decide)
theorem same_arg10 (c : Dev nD) : W2 m ρ c (Proc.devRef .tc main_arg10) = W1 m ρ c (Proc.devRef .tc main_arg10) :=
  W2_of_ne m ρ c main_arg10 (by decide)
theorem same_v43 (c : Dev nD) : W2 m ρ c (Proc.devRef .tc main_v43) = W1 m ρ c (Proc.devRef .tc main_v43) :=
  W2_of_ne m ρ c main_v43 (by decide)
theorem same_v52 (c : Dev nD) : W2 m ρ c (Proc.devRef .tc main_v52) = W1 m ρ c (Proc.devRef .tc main_v52) :=
  (W2_arr m ρ c 4).trans (((dat0 (V1 m ρ) c).arrAt_in 4 rfl _).trans (A_eq0 (V1 m ρ) c 4))
theorem same_v44 (c : Dev nD) : W2 m ρ c (Proc.devRef .tc main_v44) = W1 m ρ c (Proc.devRef .tc main_v44) :=
  (W2_arr m ρ c 6).trans (((dat0 (V1 m ρ) c).arrAt_in 6 rfl _).trans (A_eq0 (V1 m ρ) c 6))
theorem same_v45 (c : Dev nD) : W2 m ρ c (Proc.devRef .tc main_v45) = W1 m ρ c (Proc.devRef .tc main_v45) :=
  (W2_arr m ρ c 7).trans (((dat0 (V1 m ρ) c).arrAt_in 7 rfl _).trans (A_eq0 (V1 m ρ) c 7))
theorem same_v47 (c : Dev nD) : W2 m ρ c (Proc.devRef .tc main_v47) = W1 m ρ c (Proc.devRef .tc main_v47) :=
  (W2_arr m ρ c 8).trans (((dat0 (V1 m ρ) c).arrAt_in 8 rfl _).trans (A_eq0 (V1 m ρ) c 8))
theorem same_v48 (c : Dev nD) : W2 m ρ c (Proc.devRef .tc main_v48) = W1 m ρ c (Proc.devRef .tc main_v48) :=
  (W2_arr m ρ c 9).trans (((dat0 (V1 m ρ) c).arrAt_in 9 rfl _).trans (A_eq0 (V1 m ρ) c 9))
theorem same_v49 (c : Dev nD) : W2 m ρ c (Proc.devRef .tc main_v49) = W1 m ρ c (Proc.devRef .tc main_v49) :=
  (W2_arr m ρ c 10).trans (((dat0 (V1 m ρ) c).arrAt_in 10 rfl _).trans (A_eq0 (V1 m ρ) c 10))
theorem same_v50 (c : Dev nD) : W2 m ρ c (Proc.devRef .tc main_v50) = W1 m ρ c (Proc.devRef .tc main_v50) :=
  (W2_arr m ρ c 11).trans (((dat0 (V1 m ρ) c).arrAt_in 11 rfl _).trans (A_eq0 (V1 m ρ) c 11))
theorem same_v51 (c : Dev nD) : W2 m ρ c (Proc.devRef .tc main_v51) = W1 m ρ c (Proc.devRef .tc main_v51) :=
  (W2_arr m ρ c 12).trans (((dat0 (V1 m ρ) c).arrAt_in 12 rfl _).trans (A_eq0 (V1 m ρ) c 12))

end Cert.KernelIdeal.HostArrays

end
-- ==== Proof.KernelSpec.lean ====
/-
  The kernel side's formula over the arrays the host hands to the kernel is the specification.

  Each region's output array is `Body.regionVal` of thirteen arrays. The host makes them from the arguments by
  reshapes (a vector as a column or as a row: the same entries), by a change of float format (the identity over the
  extended reals) and by cutting the 616-row weight matrix into four row blocks at 0, 172, 344 and 516. Reading each
  derived array at an index gives the argument's entry, row `off + k` of `W` for a block, so the formula is
  `Cert.Side.G` of the arguments, entry by entry.
-/
import proofs.«118674_j90735479095614_2_alg».proof.Proof.Body
import Idealize.ShloMosaic.Lib.ValueLayout
import Idealize.ShloMosaic.Lib.Pipeline.Value
import Idealize.ShloMosaic.Lib.ValueIdx

noncomputable section

open scoped BigOperators

namespace Cert.KernelIdeal.KernelSpec

open Cert.KernelIdeal Idealize.ShloMosaic Idealize.ShloMosaic.ValueIdx Cert.Side Cert.ColumnLayouts

/-- A region's output over the arrays the host derives from the arguments is the specification's function of the
    arguments. -/
theorem regionVal_eq_G (nf ef : Vec Ideal S8192x32x172 .bf16) (nbr : Vec Ideal S8192x32 .i32) (nt : Vec Ideal S8192x32 .f32)
    (it : Vec Ideal S8192 .f32) (cur : Vec Ideal S8192x172 .bf16) (tw tb : Vec Ideal S100 .f32)
    (W : Vec Ideal S616x172 .f32) (bias : Vec Ideal S172 .f32)
    (hit : S8192.ShapeCasts S8192x1) (htw : S100.ShapeCasts S1x100) (hb : S172.ShapeCasts S1x172)
    (h0 : S616x172.Slices ![0, 0] S172x172) (h1 : S616x172.Slices ![172, 0] S172x172)
    (h2 : S616x172.Slices ![344, 0] S172x172) (h3 : S616x172.Slices ![516, 0] S100x172)
    (hlt : FTy.bits .bf16 < FTy.bits .f32) :
    Body.regionVal nf ef nbr nt (shapeCast S8192x1 it hit) cur (shapeCast S1x100 tw htw) (shapeCast S1x100 tb htw)
        (extractStridedSlice S172x172 ![0, 0] (truncf (F := Ideal) (φ := .f32) .bf16 W hlt) h0)
        (extractStridedSlice S172x172 ![172, 0] (truncf (F := Ideal) (φ := .f32) .bf16 W hlt) h1)
        (extractStridedSlice S172x172 ![344, 0] (truncf (F := Ideal) (φ := .f32) .bf16 W hlt) h2)
        (extractStridedSlice S100x172 ![516, 0] (truncf (F := Ideal) (φ := .f32) .bf16 W hlt) h3)
        (shapeCast S1x172 bias hb)
      = Cert.Side.G cur nf ef nbr it nt tw tb W bias := by
  funext j
  obtain ⟨b, q, rfl⟩ : ∃ (b : Fin 8192) (q : Fin 172), j = ix2 b q := ⟨j 0, j 1, eq_ix2 j⟩
  -- a row block of `W` cut from row `off` reads, at `(k, q)`, row `off + k` of `W`
  have e0 : ∀ k : Fin 172, extractStridedSlice S172x172 ![0, 0] (truncf (F := Ideal) (φ := .f32) .bf16 W hlt) h0 (ix2 k q)
      = W (ix2 (wrow 0 172 (by omega) k) q) := fun k =>
    slice2_axis0_apply 0 (truncf (F := Ideal) (φ := .f32) .bf16 W hlt) h0 k q (wrow 0 172 (by omega) k) rfl
  have e1 : ∀ k : Fin 172, extractStridedSlice S172x172 ![172, 0] (truncf (F := Ideal) (φ := .f32) .bf16 W hlt) h1 (ix2 k q)
      = W (ix2 (wrow 172 172 (by omega) k) q) := fun k =>
    slice2_axis0_apply 172 (truncf (F := Ideal) (φ := .f32) .bf16 W hlt) h1 k q (wrow 172 172 (by omega) k) rfl
  have e2 : ∀ k : Fin 172, extractStridedSlice S172x172 ![344, 0] (truncf (F := Ideal) (φ := .f32) .bf16 W hlt) h2 (ix2 k q)
      = W (ix2 (wrow 344 172 (by omega) k) q) := fun k =>
    slice2_axis0_apply 344 (truncf (F := Ideal) (φ := .f32) .bf16 W hlt) h2 k q (wrow 344 172 (by omega) k) rfl
  have e3 : ∀ k : Fin 100, extractStridedSlice S100x172 ![516, 0] (truncf (F := Ideal) (φ := .f32) .bf16 W hlt) h3 (ix2 k q)
      = W (ix2 (wrow 516 100 (by omega) k) q) := fun k =>
    slice2_axis0_apply 516 (truncf (F := Ideal) (φ := .f32) .bf16 W hlt) h3 k q (wrow 516 100 (by omega) k) rfl
  show Body.arrVal _ _ _ _ _ _ _ _ _ _ _ _ _ b q = Cert.Side.rowVal _ _ _ _ _ _ _ _ _ _ b q
  unfold Body.arrVal Cert.Side.rowVal Cert.Side.tfeat
  simp only [e0, e1, e2, e3, shapeCast_a_a1_apply, shapeCast_a_1a_apply]

end Cert.KernelIdeal.KernelSpec

end
-- ==== Proof.KernelValue.lean ====
/-
  The kernel program's three results as functions of its arguments.

  Walking the last boundary's contents back through the fold: the first result is the source-side region's output
  array, the second the destination-side region's, the third the tail's zero array; each region's output is the
  whole-array function of the arrays the region finds, those arrays are the host operations' terms of the
  arguments, and that composite is `Cert.Side.G` of the arguments themselves.
-/
import proofs.«118674_j90735479095614_2_alg».proof.Proof.KernelRun
import proofs.«118674_j90735479095614_2_alg».proof.Proof.Region0
import proofs.«118674_j90735479095614_2_alg».proof.Proof.Region1
import proofs.«118674_j90735479095614_2_alg».proof.Proof.HostArrays
import proofs.«118674_j90735479095614_2_alg».proof.Proof.KernelSpec

noncomputable section

namespace Cert.KernelIdeal.Results

open Cert.KernelIdeal Cert.KernelIdeal.Gen Cert.KernelIdeal.HostArrays
open Idealize.ShloMosaic Idealize.ShloMosaic.TcCoe Idealize.SL.Sem Idealize.ShloMosaic.StableHlo
open Idealize.ShloMosaic.Pipeline (Dat)

/-- The whole-array function respects equality of each of the thirteen arrays. -/
theorem regionVal_congr {a0 b0 a1 b1 : Vec Ideal S8192x32x172 .bf16} {a2 b2 : Vec Ideal S8192x32 .i32}
    {a3 b3 : Vec Ideal S8192x32 .f32} {a4 b4 : Vec Ideal S8192x1 .f32} {a5 b5 : Vec Ideal S8192x172 .bf16}
    {a6 b6 a7 b7 : Vec Ideal S1x100 .f32} {a8 b8 a9 b9 a10 b10 : Vec Ideal S172x172 .bf16}
    {a11 b11 : Vec Ideal S100x172 .bf16} {a12 b12 : Vec Ideal S1x172 .f32}
    (h0 : a0 = b0) (h1 : a1 = b1) (h2 : a2 = b2) (h3 : a3 = b3) (h4 : a4 = b4) (h5 : a5 = b5) (h6 : a6 = b6) (h7 : a7 = b7)
    (h8 : a8 = b8) (h9 : a9 = b9) (h10 : a10 = b10) (h11 : a11 = b11) (h12 : a12 = b12) :
    Body.regionVal a0 a1 a2 a3 a4 a5 a6 a7 a8 a9 a10 a11 a12 = Body.regionVal b0 b1 b2 b3 b4 b5 b6 b7 b8 b9 b10 b11 b12 := by
  subst h0 h1 h2 h3 h4 h5 h6 h7 h8 h9 h10 h11 h12; rfl

variable (m : (ℓ : Loc nD τ sig) → Buf (Elt Ideal) ℓ) (ρ : Dev nD → PrngReg)

/-- The source side's embedding, of the arguments. -/
def srcVal (c : Dev nD) : (⟨S8192x172, .f32⟩ : BufTy).Contents (Elt Ideal) :=
  Cert.Side.G
    (Host.gather gather_S200000x172_S8192x1_S8192x172_1_0_n_n_0_1_1172 (truncf (F := Ideal) (φ := .f32) .bf16 ((m ((c : Thread nD τ).loc main_arg0)) : FVec Ideal S200000x172 .f32) bitsLt_bf16_f32) (starts2 (m ((c : Thread nD τ).loc main_arg2))))
    (Host.gather gather_S200000x172_S8192x32x1_S8192x32x172_2_0_n_n_0_2_1172 (truncf (F := Ideal) (φ := .f32) .bf16 ((m ((c : Thread nD τ).loc main_arg0)) : FVec Ideal S200000x172 .f32) bitsLt_bf16_f32) (starts3 (m ((c : Thread nD τ).loc main_arg5)) 200000#32))
    (Host.gather gather_S500000x172_S8192x32x1_S8192x32x172_2_0_n_n_0_2_1172 (truncf (F := Ideal) (φ := .f32) .bf16 ((m ((c : Thread nD τ).loc main_arg1)) : FVec Ideal S500000x172 .f32) bitsLt_bf16_f32) (starts3 (m ((c : Thread nD τ).loc main_arg6)) 500000#32))
    (m ((c : Thread nD τ).loc main_arg5)) (m ((c : Thread nD τ).loc main_arg4)) (m ((c : Thread nD τ).loc main_arg7)) (m ((c : Thread nD τ).loc main_arg11)) (m ((c : Thread nD τ).loc main_arg12)) (m ((c : Thread nD τ).loc main_arg13)) (m ((c : Thread nD τ).loc main_arg14))

/-- The destination side's embedding, of the arguments. -/
def dstVal (c : Dev nD) : (⟨S8192x172, .f32⟩ : BufTy).Contents (Elt Ideal) :=
  Cert.Side.G
    (Host.gather gather_S200000x172_S8192x1_S8192x172_1_0_n_n_0_1_1172 (truncf (F := Ideal) (φ := .f32) .bf16 ((m ((c : Thread nD τ).loc main_arg0)) : FVec Ideal S200000x172 .f32) bitsLt_bf16_f32) (starts2 (m ((c : Thread nD τ).loc main_arg3))))
    (Host.gather gather_S200000x172_S8192x32x1_S8192x32x172_2_0_n_n_0_2_1172 (truncf (F := Ideal) (φ := .f32) .bf16 ((m ((c : Thread nD τ).loc main_arg0)) : FVec Ideal S200000x172 .f32) bitsLt_bf16_f32) (starts3 (m ((c : Thread nD τ).loc main_arg8)) 200000#32))
    (Host.gather gather_S500000x172_S8192x32x1_S8192x32x172_2_0_n_n_0_2_1172 (truncf (F := Ideal) (φ := .f32) .bf16 ((m ((c : Thread nD τ).loc main_arg1)) : FVec Ideal S500000x172 .f32) bitsLt_bf16_f32) (starts3 (m ((c : Thread nD τ).loc main_arg9)) 500000#32))
    (m ((c : Thread nD τ).loc main_arg8)) (m ((c : Thread nD τ).loc main_arg4)) (m ((c : Thread nD τ).loc main_arg10)) (m ((c : Thread nD τ).loc main_arg11)) (m ((c : Thread nD τ).loc main_arg12)) (m ((c : Thread nD τ).loc main_arg13)) (m ((c : Thread nD τ).loc main_arg14))

/-- The third result: zeros. -/
def zeroVal : (⟨S8192x172, .f32⟩ : BufTy).Contents (Elt Ideal) :=
  broadcastInDim S8192x172 ![] bcast_S_S8192x172 (constant (F := Ideal) S_ .f32 0x00000000#32)

/-- The source-side region's output array is the source side's embedding. -/
theorem region0_val (c : Dev nD) : (dat0 (V1 m ρ) c).arrAt 13 cfg0.N = srcVal m c :=
  (Region0.final (V1 m ρ) c).trans
    ((regionVal_congr (at_v8 m ρ c) (at_v15 m ρ c) (at_arg5 m ρ c) (at_arg7 m ρ c) (at_v52 m ρ c) (at_v22 m ρ c)
        (at_v44 m ρ c) (at_v45 m ρ c) (at_v47 m ρ c) (at_v48 m ρ c) (at_v49 m ρ c) (at_v50 m ρ c) (at_v51 m ρ c)).trans
      (KernelSpec.regionVal_eq_G _ _ _ _ _ _ _ _ _ _ _ _ _ _ _ _ _ _))

/-- The destination-side region's output array is the destination side's embedding: it finds its arrays as the
    host operations left them. -/
theorem region1_val (c : Dev nD) : (dat1 (V2 m ρ) c).arrAt 13 cfg1.N = dstVal m c :=
  (Region1.final (V2 m ρ) c).trans
    ((regionVal_congr ((same_v29 m ρ c).trans (at_v29 m ρ c)) ((same_v36 m ρ c).trans (at_v36 m ρ c))
        ((same_arg8 m ρ c).trans (at_arg8 m ρ c)) ((same_arg10 m ρ c).trans (at_arg10 m ρ c))
        ((same_v52 m ρ c).trans (at_v52 m ρ c)) ((same_v43 m ρ c).trans (at_v43 m ρ c))
        ((same_v44 m ρ c).trans (at_v44 m ρ c)) ((same_v45 m ρ c).trans (at_v45 m ρ c))
        ((same_v47 m ρ c).trans (at_v47 m ρ c)) ((same_v48 m ρ c).trans (at_v48 m ρ c))
        ((same_v49 m ρ c).trans (at_v49 m ρ c)) ((same_v50 m ρ c).trans (at_v50 m ρ c))
        ((same_v51 m ρ c).trans (at_v51 m ρ c))).trans
      (KernelSpec.regionVal_eq_G _ _ _ _ _ _ _ _ _ _ _ _ _ _ _ _ _ _))

/-- The first result at the last boundary: the tail and the second region leave it as the first region wrote it. -/
theorem W4_v53 (c : Dev nD) : W4 m ρ c (Proc.devRef .tc main_v53) = srcVal m c :=
  calc W4 m ρ c (Proc.devRef .tc main_v53)
    _ = W3 m ρ c (Proc.devRef .tc main_v53) := by
          show StableHlo.after hostOps2 (W3 m ρ c) (Proc.devRef .tc main_v53) = _
          after_results_simp <;> rfl
    _ = W2 m ρ c (Proc.devRef .tc main_v53) := W3_of_ne m ρ c main_v53 (by decide)
    _ = (dat0 (V1 m ρ) c).arrAt 13 cfg0.N := W2_arr m ρ c 13
    _ = srcVal m c := region0_val m ρ c

/-- The second result at the last boundary: the tail leaves it as the second region wrote it. -/
theorem W4_v54 (c : Dev nD) : W4 m ρ c (Proc.devRef .tc main_v54) = dstVal m c :=
  calc W4 m ρ c (Proc.devRef .tc main_v54)
    _ = W3 m ρ c (Proc.devRef .tc main_v54) := by
          show StableHlo.after hostOps2 (W3 m ρ c) (Proc.devRef .tc main_v54) = _
          after_results_simp <;> rfl
    _ = (dat1 (V2 m ρ) c).arrAt 13 cfg1.N := W3_arr m ρ c 13
    _ = dstVal m c := region1_val m ρ c

/-- The third result at the last boundary: the tail's zero array. -/
theorem W4_v55 (c : Dev nD) : W4 m ρ c (Proc.devRef .tc main_v55) = zeroVal := by
  show StableHlo.after hostOps2 (W3 m ρ c) (Proc.devRef .tc main_v55) = _
  after_results_simp <;> rfl

/-- THE RUN, READ: every weakly fair execution of the kernel program terminates with its three results at the
    two sides' embeddings and zeros, the arguments unchanged. -/
theorem run : θ_run defs (onTc (τ := τ) (main (F := Ideal))) ⟨m, fun _ => 0, ρ⟩ (fun r => ∀ c : Dev nD,
      r.2.mem ((c.tc : Thread nD τ).loc main_v53) = srcVal m c
      ∧ r.2.mem ((c.tc : Thread nD τ).loc main_v54) = dstVal m c
      ∧ r.2.mem ((c.tc : Thread nD τ).loc main_v55) = zeroVal
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(Ends.ends_at m ρ h c main_v53 (by decide)).trans (W4_v53 m ρ c),
     (Ends.ends_at m ρ h c main_v54 (by decide)).trans (W4_v54 m ρ c),
     (Ends.ends_at m ρ h c main_v55 (by decide)).trans (W4_v55 m ρ c),
     (Ends.ends_at m ρ h c main_arg0 (by decide)).trans (W4_main_arg0 m ρ c),
     (Ends.ends_at m ρ h c main_arg1 (by decide)).trans (W4_main_arg1 m ρ c),
     (Ends.ends_at m ρ h c main_arg2 (by decide)).trans (W4_main_arg2 m ρ c),
     (Ends.ends_at m ρ h c main_arg3 (by decide)).trans (W4_main_arg3 m ρ c),
     (Ends.ends_at m ρ h c main_arg4 (by decide)).trans (W4_main_arg4 m ρ c),
     (Ends.ends_at m ρ h c main_arg5 (by decide)).trans (W4_main_arg5 m ρ c),
     (Ends.ends_at m ρ h c main_arg6 (by decide)).trans (W4_main_arg6 m ρ c),
     (Ends.ends_at m ρ h c main_arg7 (by decide)).trans (W4_main_arg7 m ρ c),
     (Ends.ends_at m ρ h c main_arg8 (by decide)).trans (W4_main_arg8 m ρ c),
     (Ends.ends_at m ρ h c main_arg9 (by decide)).trans (W4_main_arg9 m ρ c),
     (Ends.ends_at m ρ h c main_arg10 (by decide)).trans (W4_main_arg10 m ρ c),
     (Ends.ends_at m ρ h c main_arg11 (by decide)).trans (W4_main_arg11 m ρ c),
     (Ends.ends_at m ρ h c main_arg12 (by decide)).trans (W4_main_arg12 m ρ c),
     (Ends.ends_at m ρ h c main_arg13 (by decide)).trans (W4_main_arg13 m ρ c),
     (Ends.ends_at m ρ h c main_arg14 (by decide)).trans (W4_main_arg14 m ρ c)⟩)
    (Ends.run_ends m ρ)

end Cert.KernelIdeal.Results

end
-- ==== Proof.RefSide.lean ====
/-
  The reference side: each of the two embeddings the reference program computes (source, destination) is the
  function `Cert.Side.G` of the gathered feature arrays, entry by entry.

  The reference forms the 616-long row `[cur | mean nf | mean ef | mean tfeat]`, multiplies it with `W`, adds the
  bias and rectifies. Reading the product at an entry gives one sum over the 616 columns; it is split at 172, 344
  and 516 into the four sums of the specification, and in each range the row is read through the two joins.
  Every step is an identity of extended reals: no finiteness is used.
-/
import proofs.«118674_j90735479095614_2_alg».proof.Proof.Gen.ReferenceIdeal.Read
import proofs.«118674_j90735479095614_2_alg».proof.Proof.Spec
import Idealize.ShloMosaic.Lib.ValueIdx
import Idealize.ShloMosaic.Lib.Pipeline.Value
import Idealize.ShloMosaic.PureOps.Ideal.Laws

noncomputable section

open scoped BigOperators

namespace Cert.RefSide

open Cert.ReferenceIdeal Cert.ReferenceIdeal.Read Idealize.ShloMosaic Idealize.ShloMosaic.ValueIdx

/-- Two rank-1 / rank-2 / rank-3 indices are equal when their coordinates are. -/
local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

/-- A sum over the 616 columns, split at 172, 344 and 516. -/
theorem sum616 (f : Fin 616 → EReal) :
    ∑ κ : Fin 616, f κ
      = (((∑ k : Fin 172, f (Cert.Side.wrow 0 172 (by omega) k))
          + ∑ k : Fin 172, f (Cert.Side.wrow 172 172 (by omega) k))
          + ∑ k : Fin 172, f (Cert.Side.wrow 344 172 (by omega) k))
          + ∑ k : Fin 100, f (Cert.Side.wrow 516 100 (by omega) k) := by
  have h1 := Fin.sum_univ_add (a := 172) (b := 444) f
  have h2 := Fin.sum_univ_add (a := 172) (b := 272) (fun i : Fin 444 => f (Fin.natAdd 172 i))
  have h3 := Fin.sum_univ_add (a := 172) (b := 100) (fun i : Fin 272 => f (Fin.natAdd 172 (Fin.natAdd 172 i)))
  have eA : ∀ k : Fin 172, (Fin.castAdd 444 k : Fin 616) = Cert.Side.wrow 0 172 (by omega) k := fun k =>
    Fin.ext (by simp only [Cert.Side.wrow, Fin.coe_castAdd]; omega)
  have eB : ∀ k : Fin 172, (Fin.natAdd 172 (Fin.castAdd 272 k : Fin 444) : Fin 616) = Cert.Side.wrow 172 172 (by omega) k :=
    fun k => Fin.ext (by simp only [Cert.Side.wrow, Fin.coe_natAdd, Fin.coe_castAdd])
  have eC : ∀ k : Fin 172, (Fin.natAdd 172 (Fin.natAdd 172 (Fin.castAdd 100 k : Fin 272) : Fin 444) : Fin 616)
      = Cert.Side.wrow 344 172 (by omega) k :=
    fun k => Fin.ext (by simp only [Cert.Side.wrow, Fin.coe_natAdd, Fin.coe_castAdd]; omega)
  have eD : ∀ k : Fin 100, (Fin.natAdd 172 (Fin.natAdd 172 (Fin.natAdd 172 k : Fin 272) : Fin 444) : Fin 616)
      = Cert.Side.wrow 516 100 (by omega) k :=
    fun k => Fin.ext (by simp only [Cert.Side.wrow, Fin.coe_natAdd]; omega)
  have h := h1.trans (congrArg (_ + ·) (h2.trans (congrArg (_ + ·) h3)))
  simp only [eA, eB, eC, eD] at h
  rw [h, add_assoc, add_assoc]

/-! ## The source side -/

section Src

variable (x0 : (⟨S200000x172, .f32⟩ : BufTy).Contents (Elt Ideal)) (x1 : (⟨S500000x172, .f32⟩ : BufTy).Contents (Elt Ideal))
  (x2 : (⟨S8192, .i32⟩ : BufTy).Contents (Elt Ideal)) (x4 : (⟨S8192, .f32⟩ : BufTy).Contents (Elt Ideal))
  (x5 x6 : (⟨S8192x32, .i32⟩ : BufTy).Contents (Elt Ideal)) (x7 : (⟨S8192x32, .f32⟩ : BufTy).Contents (Elt Ideal))
  (x11 x12 : (⟨S100, .f32⟩ : BufTy).Contents (Elt Ideal)) (x13 : (⟨S616x172, .f32⟩ : BufTy).Contents (Elt Ideal))
  (x14 : (⟨S172, .f32⟩ : BufTy).Contents (Elt Ideal))

/-- The masked time feature: the reference selects the zero word where the neighbour id is 0 and the cosine elsewhere,
    which is the cosine times the mask. -/
theorem tf_src (b : Fin 8192) (s : Fin 32) (k : Fin 100) :
    val_main_v29 (F := Ideal) x4 x5 x7 x11 x12 (ix3 b s k) = Cert.Side.tfeat x5 x4 x7 x11 x12 b s k := by
  rw [val_main_v29_apply, val_main_call0_v1_apply, val_main_v28_apply, val_main_v27_apply, val_main_v26_apply,
    val_main_c_3_apply, val_main_call0_v2_apply, val_main_call0_v0_apply, val_main_cst_apply, val_main_v25_apply,
    val_main_v24_apply, val_main_v21_apply, val_main_v19_apply, val_main_v17_apply, val_main_v16_apply,
    val_main_v15_apply, val_main_v14_apply, val_main_v20_apply, val_main_v18_apply, val_main_v23_apply,
    val_main_v22_apply]
  have e1 : idx_main_v28 (idx_main_call0_v1 (ix3 b s k)) = ix2 b s := by idx2
  have e2 : idx_main_v14 (idx_main_v15 (idx_main_v17 (idx_main_v19 (ix3 b s k)))) = ix1 b := by idx1
  have e3 : idx_main_v17 (idx_main_v19 (ix3 b s k)) = ix2 b s := by idx2
  have e4 : idx_main_v18 (idx_main_v20 (ix3 b s k)) = ix1 k := by idx1
  have e5 : idx_main_v22 (idx_main_v23 (ix3 b s k)) = ix1 k := by idx1
  rw [e1, e2, e3, e4, e5]
  unfold Cert.Side.tfeat
  rw [Cert.Side.mul_keep]
  by_cases h : x5 (ix2 b s) = 0#32
  · have hc : IntOp.cmpi CmpIPredicate.eq (x5 (ix2 b s)) 0#32 = 1#1 := by rw [h]; rfl
    rw [hc, select_one, if_pos h]
    exact Ideal.ofBits_zero_f32
  · have hc : IntOp.cmpi CmpIPredicate.eq (x5 (ix2 b s)) 0#32 = 0#1 := by
      have hb : (x5 (ix2 b s) == 0#32) = false := beq_eq_false_iff_ne.2 h
      show BitVec.ofBool (x5 (ix2 b s) == 0#32) = 0#1
      rw [hb]; rfl
    rw [hc, select_zero, if_neg h]
    rfl

/-- The join of the three neighbour arrays along the feature axis, read at a column of its first range: the node
    features. -/
theorem v30_nf (b : Fin 8192) (s : Fin 32) (c : Fin 444) (k : Fin 172) (hc : c.val = k.val) :
    val_main_v30 (F := Ideal) x0 x1 x4 x5 x6 x7 x11 x12 (ix3 b s c) = val_main_v6 (F := Ideal) x0 x5 (ix3 b s k) := by
  unfold val_main_v30
  refine concatenate_apply_piece _ _ _ _ 0 ?_ S8192x32x172 (val_main_v6 (F := Ideal) x0 x5) ?_ ?_ 0 ?_ (ix3 b s k) ?_ ?_
  · simp
  · rfl
  · rfl
  · rfl
  · intro a ha
    match a with
    | ⟨0, _⟩ => rfl
    | ⟨1, _⟩ => rfl
    | ⟨2, _⟩ => exact absurd rfl ha
  · show 0 + k.val = c.val
    omega

/-- At a column of its second range, 172 on: the edge features. -/
theorem v30_ef (b : Fin 8192) (s : Fin 32) (c : Fin 444) (k : Fin 172) (hc : c.val = 172 + k.val) :
    val_main_v30 (F := Ideal) x0 x1 x4 x5 x6 x7 x11 x12 (ix3 b s c) = val_main_v13 (F := Ideal) x1 x6 (ix3 b s k) := by
  unfold val_main_v30
  refine concatenate_apply_piece _ _ _ _ 1 ?_ S8192x32x172 (val_main_v13 (F := Ideal) x1 x6) ?_ ?_ 172 ?_ (ix3 b s k) ?_ ?_
  · simp
  · rfl
  · rfl
  · rfl
  · intro a ha
    match a with
    | ⟨0, _⟩ => rfl
    | ⟨1, _⟩ => rfl
    | ⟨2, _⟩ => exact absurd rfl ha
  · show 172 + k.val = c.val
    omega

/-- At a column of its third range, 344 on: the masked time features. -/
theorem v30_tf (b : Fin 8192) (s : Fin 32) (c : Fin 444) (k : Fin 100) (hc : c.val = 344 + k.val) :
    val_main_v30 (F := Ideal) x0 x1 x4 x5 x6 x7 x11 x12 (ix3 b s c)
      = val_main_v29 (F := Ideal) x4 x5 x7 x11 x12 (ix3 b s k) := by
  unfold val_main_v30
  refine concatenate_apply_piece _ _ _ _ 2 ?_ S8192x32x100 (val_main_v29 (F := Ideal) x4 x5 x7 x11 x12) ?_ ?_ 344 ?_ (ix3 b s k) ?_ ?_
  · simp
  · rfl
  · rfl
  · rfl
  · intro a ha
    match a with
    | ⟨0, _⟩ => rfl
    | ⟨1, _⟩ => rfl
    | ⟨2, _⟩ => exact absurd rfl ha
  · show 344 + k.val = c.val
    omega

/-- The mean over the 32 neighbour slots: the sum started from the zero word, divided by the word 32, is the sum
    times the word 1/32. -/
theorem v33_mean (b : Fin 8192) (c : Fin 444) :
    val_main_v33 (F := Ideal) x0 x1 x4 x5 x6 x7 x11 x12 (ix2 b c)
      = (∑ s : Fin 32, val_main_v30 (F := Ideal) x0 x1 x4 x5 x6 x7 x11 x12 (ix3 b s c)) * Cert.Side.c32 := by
  rw [val_main_v33_apply, val_main_v31_apply, val_main_v32_apply, val_main_cst_5_apply, val_main_cst_4_apply]
  rw [Ideal.hostDivf_def, Ideal.ofBits_def, Ideal.ofBits_def, Ideal.ofBits_zero_f32, zero_add, Cert.Side.div_32]
  refine congrArg (· * Cert.Side.c32) (Finset.sum_congr rfl fun s _ => ?_)
  exact congrArg _ (by idx3)

/-- The 616-long row read at a column of its first range: the node's own features. -/
theorem v41_cur (b : Fin 8192) (κ : Fin 616) (k : Fin 172) (hκ : κ.val = k.val) :
    val_main_v41 (F := Ideal) x0 x1 x2 x4 x5 x6 x7 x11 x12 (ix2 b κ) = val_main_v40 (F := Ideal) x0 x2 (ix2 b k) := by
  unfold val_main_v41
  refine concatenate_pair_apply_left _ _ _ _ _ ?_ (ix2 b k) ?_
  · rfl
  · intro a
    match a with
    | ⟨0, _⟩ => rfl
    | ⟨1, _⟩ => exact hκ.symm

/-- At a column from 172 on: the means over the neighbour slots. -/
theorem v41_mean (b : Fin 8192) (κ : Fin 616) (c : Fin 444) (hκ : κ.val = 172 + c.val) :
    val_main_v41 (F := Ideal) x0 x1 x2 x4 x5 x6 x7 x11 x12 (ix2 b κ)
      = val_main_v33 (F := Ideal) x0 x1 x4 x5 x6 x7 x11 x12 (ix2 b c) := by
  unfold val_main_v41
  refine concatenate_pair_apply_right _ _ _ _ _ ?_ ?_ (ix2 b c) ?_ ?_
  · rfl
  · rfl
  · intro a ha
    match a with
    | ⟨0, _⟩ => rfl
    | ⟨1, _⟩ => exact absurd rfl ha
  · show c.val + 172 = κ.val
    omega

/-- The row's first range: the node's own features. -/
theorem row_cur (b : Fin 8192) (k : Fin 172) (h : 0 + 172 ≤ 616) :
    val_main_v41 (F := Ideal) x0 x1 x2 x4 x5 x6 x7 x11 x12 (ix2 b (Cert.Side.wrow 0 172 h k)) = val_main_v40 (F := Ideal) x0 x2 (ix2 b k) :=
  v41_cur x0 x1 x2 x4 x5 x6 x7 x11 x12 b _ k (by show 0 + k.val = k.val; omega)

/-- The row's second range: the mean of the neighbours' node features. -/
theorem row_nf (b : Fin 8192) (k : Fin 172) (h : 172 + 172 ≤ 616) :
    val_main_v41 (F := Ideal) x0 x1 x2 x4 x5 x6 x7 x11 x12 (ix2 b (Cert.Side.wrow 172 172 h k))
      = (∑ s : Fin 32, val_main_v6 (F := Ideal) x0 x5 (ix3 b s k)) * Cert.Side.c32 := by
  rw [v41_mean x0 x1 x2 x4 x5 x6 x7 x11 x12 b _ (⟨k.val, by have := k.isLt; omega⟩ : Fin 444) rfl, v33_mean]
  exact congrArg (· * Cert.Side.c32) (Finset.sum_congr rfl fun s _ => v30_nf x0 x1 x4 x5 x6 x7 x11 x12 b s _ k rfl)

/-- The row's third range: the mean of the edge features. -/
theorem row_ef (b : Fin 8192) (k : Fin 172) (h : 344 + 172 ≤ 616) :
    val_main_v41 (F := Ideal) x0 x1 x2 x4 x5 x6 x7 x11 x12 (ix2 b (Cert.Side.wrow 344 172 h k))
      = (∑ s : Fin 32, val_main_v13 (F := Ideal) x1 x6 (ix3 b s k)) * Cert.Side.c32 := by
  rw [v41_mean x0 x1 x2 x4 x5 x6 x7 x11 x12 b _ (⟨172 + k.val, by have := k.isLt; omega⟩ : Fin 444)
    (by show 344 + k.val = 172 + (172 + k.val); omega), v33_mean]
  exact congrArg (· * Cert.Side.c32) (Finset.sum_congr rfl fun s _ => v30_ef x0 x1 x4 x5 x6 x7 x11 x12 b s _ k rfl)

/-- The row's fourth range: the mean of the masked time features. -/
theorem row_tf (b : Fin 8192) (k : Fin 100) (h : 516 + 100 ≤ 616) :
    val_main_v41 (F := Ideal) x0 x1 x2 x4 x5 x6 x7 x11 x12 (ix2 b (Cert.Side.wrow 516 100 h k))
      = (∑ s : Fin 32, Cert.Side.tfeat x5 x4 x7 x11 x12 b s k) * Cert.Side.c32 := by
  rw [v41_mean x0 x1 x2 x4 x5 x6 x7 x11 x12 b _ (⟨344 + k.val, by have := k.isLt; omega⟩ : Fin 444)
    (by show 516 + k.val = 172 + (344 + k.val); omega), v33_mean]
  exact congrArg (· * Cert.Side.c32) (Finset.sum_congr rfl fun s _ =>
    (v30_tf x0 x1 x4 x5 x6 x7 x11 x12 b s _ k rfl).trans (tf_src x4 x5 x7 x11 x12 b s k))

/-- The source side's embedding is the specification's function of the gathered arrays. -/
theorem src_side :
    val_main_v46 (F := Ideal) x0 x1 x2 x4 x5 x6 x7 x11 x12 x13 x14
      = Cert.Side.G (val_main_v40 (F := Ideal) x0 x2) (val_main_v6 (F := Ideal) x0 x5) (val_main_v13 (F := Ideal) x1 x6)
          x5 x4 x7 x11 x12 x13 x14 := by
  funext j
  obtain ⟨b, q, rfl⟩ : ∃ b q, j = ix2 b q := ⟨j 0, j 1, eq_ix2 j⟩
  rw [Cert.Side.G_ix2]
  unfold Cert.Side.rowVal
  rw [val_main_v46_apply, val_main_v45_apply, val_main_v42_apply, val_main_v44_apply, val_main_v43_apply,
    val_main_call1_v0_apply, val_main_call1_cst_apply]
  rw [Ideal.maximumf_def, Ideal.addf_def, Ideal.ofBits_def]
  have eb : idx_main_v43 (idx_main_v44 (ix2 b q)) = ix1 q := by idx1
  have el : ∀ κ : Fin 616, lidx_main_v42 (ix2 b q) κ = ix2 b κ := fun κ => by idx2
  have er : ∀ κ : Fin 616, ridx_main_v42 (ix2 b q) κ = ix2 κ q := fun κ => by idx2
  rw [eb, sum616]
  simp only [el, er, row_cur, row_nf, row_ef, row_tf]

end Src

/-! ## The destination side

The destination's operations are the source's, one for one, on the destination's neighbour arrays: the same reading. -/

section Dst

variable (x0 : (⟨S200000x172, .f32⟩ : BufTy).Contents (Elt Ideal)) (x1 : (⟨S500000x172, .f32⟩ : BufTy).Contents (Elt Ideal))
  (x3 : (⟨S8192, .i32⟩ : BufTy).Contents (Elt Ideal)) (x4 : (⟨S8192, .f32⟩ : BufTy).Contents (Elt Ideal))
  (x8 x9 : (⟨S8192x32, .i32⟩ : BufTy).Contents (Elt Ideal)) (x10 : (⟨S8192x32, .f32⟩ : BufTy).Contents (Elt Ideal))
  (x11 x12 : (⟨S100, .f32⟩ : BufTy).Contents (Elt Ideal)) (x13 : (⟨S616x172, .f32⟩ : BufTy).Contents (Elt Ideal))
  (x14 : (⟨S172, .f32⟩ : BufTy).Contents (Elt Ideal))

/-- The masked time feature: the reference selects the zero word where the neighbour id is 0 and the cosine elsewhere,
    which is the cosine times the mask. -/
theorem tf_dst (b : Fin 8192) (s : Fin 32) (k : Fin 100) :
    val_main_v76 (F := Ideal) x4 x8 x10 x11 x12 (ix3 b s k) = Cert.Side.tfeat x8 x4 x10 x11 x12 b s k := by
  rw [val_main_v76_apply, val_main_call2_v1_apply, val_main_v75_apply, val_main_v74_apply, val_main_v73_apply,
    val_main_c_12_apply, val_main_call2_v2_apply, val_main_call2_v0_apply, val_main_cst_13_apply, val_main_v72_apply,
    val_main_v71_apply, val_main_v68_apply, val_main_v66_apply, val_main_v64_apply, val_main_v63_apply,
    val_main_v62_apply, val_main_v61_apply, val_main_v67_apply, val_main_v65_apply, val_main_v70_apply,
    val_main_v69_apply]
  have e1 : idx_main_v75 (idx_main_call2_v1 (ix3 b s k)) = ix2 b s := by idx2
  have e2 : idx_main_v61 (idx_main_v62 (idx_main_v64 (idx_main_v66 (ix3 b s k)))) = ix1 b := by idx1
  have e3 : idx_main_v64 (idx_main_v66 (ix3 b s k)) = ix2 b s := by idx2
  have e4 : idx_main_v65 (idx_main_v67 (ix3 b s k)) = ix1 k := by idx1
  have e5 : idx_main_v69 (idx_main_v70 (ix3 b s k)) = ix1 k := by idx1
  rw [e1, e2, e3, e4, e5]
  unfold Cert.Side.tfeat
  rw [Cert.Side.mul_keep]
  by_cases h : x8 (ix2 b s) = 0#32
  · have hc : IntOp.cmpi CmpIPredicate.eq (x8 (ix2 b s)) 0#32 = 1#1 := by rw [h]; rfl
    rw [hc, select_one, if_pos h]
    exact Ideal.ofBits_zero_f32
  · have hc : IntOp.cmpi CmpIPredicate.eq (x8 (ix2 b s)) 0#32 = 0#1 := by
      have hb : (x8 (ix2 b s) == 0#32) = false := beq_eq_false_iff_ne.2 h
      show BitVec.ofBool (x8 (ix2 b s) == 0#32) = 0#1
      rw [hb]; rfl
    rw [hc, select_zero, if_neg h]
    rfl

/-- The join of the three neighbour arrays along the feature axis, read at a column of its first range: the node
    features. -/
theorem v77_nf (b : Fin 8192) (s : Fin 32) (c : Fin 444) (k : Fin 172) (hc : c.val = k.val) :
    val_main_v77 (F := Ideal) x0 x1 x4 x8 x9 x10 x11 x12 (ix3 b s c) = val_main_v53 (F := Ideal) x0 x8 (ix3 b s k) := by
  unfold val_main_v77
  refine concatenate_apply_piece _ _ _ _ 0 ?_ S8192x32x172 (val_main_v53 (F := Ideal) x0 x8) ?_ ?_ 0 ?_ (ix3 b s k) ?_ ?_
  · simp
  · rfl
  · rfl
  · rfl
  · intro a ha
    match a with
    | ⟨0, _⟩ => rfl
    | ⟨1, _⟩ => rfl
    | ⟨2, _⟩ => exact absurd rfl ha
  · show 0 + k.val = c.val
    omega

/-- At a column of its second range, 172 on: the edge features. -/
theorem v77_ef (b : Fin 8192) (s : Fin 32) (c : Fin 444) (k : Fin 172) (hc : c.val = 172 + k.val) :
    val_main_v77 (F := Ideal) x0 x1 x4 x8 x9 x10 x11 x12 (ix3 b s c) = val_main_v60 (F := Ideal) x1 x9 (ix3 b s k) := by
  unfold val_main_v77
  refine concatenate_apply_piece _ _ _ _ 1 ?_ S8192x32x172 (val_main_v60 (F := Ideal) x1 x9) ?_ ?_ 172 ?_ (ix3 b s k) ?_ ?_
  · simp
  · rfl
  · rfl
  · rfl
  · intro a ha
    match a with
    | ⟨0, _⟩ => rfl
    | ⟨1, _⟩ => rfl
    | ⟨2, _⟩ => exact absurd rfl ha
  · show 172 + k.val = c.val
    omega

/-- At a column of its third range, 344 on: the masked time features. -/
theorem v77_tf (b : Fin 8192) (s : Fin 32) (c : Fin 444) (k : Fin 100) (hc : c.val = 344 + k.val) :
    val_main_v77 (F := Ideal) x0 x1 x4 x8 x9 x10 x11 x12 (ix3 b s c)
      = val_main_v76 (F := Ideal) x4 x8 x10 x11 x12 (ix3 b s k) := by
  unfold val_main_v77
  refine concatenate_apply_piece _ _ _ _ 2 ?_ S8192x32x100 (val_main_v76 (F := Ideal) x4 x8 x10 x11 x12) ?_ ?_ 344 ?_ (ix3 b s k) ?_ ?_
  · simp
  · rfl
  · rfl
  · rfl
  · intro a ha
    match a with
    | ⟨0, _⟩ => rfl
    | ⟨1, _⟩ => rfl
    | ⟨2, _⟩ => exact absurd rfl ha
  · show 344 + k.val = c.val
    omega

/-- The mean over the 32 neighbour slots: the sum started from the zero word, divided by the word 32, is the sum
    times the word 1/32. -/
theorem v80_mean (b : Fin 8192) (c : Fin 444) :
    val_main_v80 (F := Ideal) x0 x1 x4 x8 x9 x10 x11 x12 (ix2 b c)
      = (∑ s : Fin 32, val_main_v77 (F := Ideal) x0 x1 x4 x8 x9 x10 x11 x12 (ix3 b s c)) * Cert.Side.c32 := by
  rw [val_main_v80_apply, val_main_v78_apply, val_main_v79_apply, val_main_cst_15_apply, val_main_cst_14_apply]
  rw [Ideal.hostDivf_def, Ideal.ofBits_def, Ideal.ofBits_def, Ideal.ofBits_zero_f32, zero_add, Cert.Side.div_32]
  refine congrArg (· * Cert.Side.c32) (Finset.sum_congr rfl fun s _ => ?_)
  exact congrArg _ (by idx3)

/-- The 616-long row read at a column of its first range: the node's own features. -/
theorem v88_cur (b : Fin 8192) (κ : Fin 616) (k : Fin 172) (hκ : κ.val = k.val) :
    val_main_v88 (F := Ideal) x0 x1 x3 x4 x8 x9 x10 x11 x12 (ix2 b κ) = val_main_v87 (F := Ideal) x0 x3 (ix2 b k) := by
  unfold val_main_v88
  refine concatenate_pair_apply_left _ _ _ _ _ ?_ (ix2 b k) ?_
  · rfl
  · intro a
    match a with
    | ⟨0, _⟩ => rfl
    | ⟨1, _⟩ => exact hκ.symm

/-- At a column from 172 on: the means over the neighbour slots. -/
theorem v88_mean (b : Fin 8192) (κ : Fin 616) (c : Fin 444) (hκ : κ.val = 172 + c.val) :
    val_main_v88 (F := Ideal) x0 x1 x3 x4 x8 x9 x10 x11 x12 (ix2 b κ)
      = val_main_v80 (F := Ideal) x0 x1 x4 x8 x9 x10 x11 x12 (ix2 b c) := by
  unfold val_main_v88
  refine concatenate_pair_apply_right _ _ _ _ _ ?_ ?_ (ix2 b c) ?_ ?_
  · rfl
  · rfl
  · intro a ha
    match a with
    | ⟨0, _⟩ => rfl
    | ⟨1, _⟩ => exact absurd rfl ha
  · show c.val + 172 = κ.val
    omega

/-- The row's first range: the node's own features. -/
theorem drow_cur (b : Fin 8192) (k : Fin 172) (h : 0 + 172 ≤ 616) :
    val_main_v88 (F := Ideal) x0 x1 x3 x4 x8 x9 x10 x11 x12 (ix2 b (Cert.Side.wrow 0 172 h k)) = val_main_v87 (F := Ideal) x0 x3 (ix2 b k) :=
  v88_cur x0 x1 x3 x4 x8 x9 x10 x11 x12 b _ k (by show 0 + k.val = k.val; omega)

/-- The row's second range: the mean of the neighbours' node features. -/
theorem drow_nf (b : Fin 8192) (k : Fin 172) (h : 172 + 172 ≤ 616) :
    val_main_v88 (F := Ideal) x0 x1 x3 x4 x8 x9 x10 x11 x12 (ix2 b (Cert.Side.wrow 172 172 h k))
      = (∑ s : Fin 32, val_main_v53 (F := Ideal) x0 x8 (ix3 b s k)) * Cert.Side.c32 := by
  rw [v88_mean x0 x1 x3 x4 x8 x9 x10 x11 x12 b _ (⟨k.val, by have := k.isLt; omega⟩ : Fin 444) rfl, v80_mean]
  exact congrArg (· * Cert.Side.c32) (Finset.sum_congr rfl fun s _ => v77_nf x0 x1 x4 x8 x9 x10 x11 x12 b s _ k rfl)

/-- The row's third range: the mean of the edge features. -/
theorem drow_ef (b : Fin 8192) (k : Fin 172) (h : 344 + 172 ≤ 616) :
    val_main_v88 (F := Ideal) x0 x1 x3 x4 x8 x9 x10 x11 x12 (ix2 b (Cert.Side.wrow 344 172 h k))
      = (∑ s : Fin 32, val_main_v60 (F := Ideal) x1 x9 (ix3 b s k)) * Cert.Side.c32 := by
  rw [v88_mean x0 x1 x3 x4 x8 x9 x10 x11 x12 b _ (⟨172 + k.val, by have := k.isLt; omega⟩ : Fin 444)
    (by show 344 + k.val = 172 + (172 + k.val); omega), v80_mean]
  exact congrArg (· * Cert.Side.c32) (Finset.sum_congr rfl fun s _ => v77_ef x0 x1 x4 x8 x9 x10 x11 x12 b s _ k rfl)

/-- The row's fourth range: the mean of the masked time features. -/
theorem drow_tf (b : Fin 8192) (k : Fin 100) (h : 516 + 100 ≤ 616) :
    val_main_v88 (F := Ideal) x0 x1 x3 x4 x8 x9 x10 x11 x12 (ix2 b (Cert.Side.wrow 516 100 h k))
      = (∑ s : Fin 32, Cert.Side.tfeat x8 x4 x10 x11 x12 b s k) * Cert.Side.c32 := by
  rw [v88_mean x0 x1 x3 x4 x8 x9 x10 x11 x12 b _ (⟨344 + k.val, by have := k.isLt; omega⟩ : Fin 444)
    (by show 516 + k.val = 172 + (344 + k.val); omega), v80_mean]
  exact congrArg (· * Cert.Side.c32) (Finset.sum_congr rfl fun s _ =>
    (v77_tf x0 x1 x4 x8 x9 x10 x11 x12 b s _ k rfl).trans (tf_dst x4 x8 x10 x11 x12 b s k))

/-- The destination side's embedding is the specification's function of the gathered arrays. -/
theorem dst_side :
    val_main_v93 (F := Ideal) x0 x1 x3 x4 x8 x9 x10 x11 x12 x13 x14
      = Cert.Side.G (val_main_v87 (F := Ideal) x0 x3) (val_main_v53 (F := Ideal) x0 x8) (val_main_v60 (F := Ideal) x1 x9)
          x8 x4 x10 x11 x12 x13 x14 := by
  funext j
  obtain ⟨b, q, rfl⟩ : ∃ b q, j = ix2 b q := ⟨j 0, j 1, eq_ix2 j⟩
  rw [Cert.Side.G_ix2]
  unfold Cert.Side.rowVal
  rw [val_main_v93_apply, val_main_v92_apply, val_main_v89_apply, val_main_v91_apply, val_main_v90_apply,
    val_main_call3_v0_apply, val_main_call3_cst_apply]
  rw [Ideal.maximumf_def, Ideal.addf_def, Ideal.ofBits_def]
  have eb : idx_main_v90 (idx_main_v91 (ix2 b q)) = ix1 q := by idx1
  have el : ∀ κ : Fin 616, lidx_main_v89 (ix2 b q) κ = ix2 b κ := fun κ => by idx2
  have er : ∀ κ : Fin 616, ridx_main_v89 (ix2 b q) κ = ix2 κ q := fun κ => by idx2
  rw [eb, sum616]
  simp only [el, er, drow_cur, drow_nf, drow_ef, drow_tf]

end Dst

/-! ## The two statements -/

theorem src_eq (x0 : (⟨S200000x172, .f32⟩ : BufTy).Contents (Elt Ideal)) (x1 : (⟨S500000x172, .f32⟩ : BufTy).Contents (Elt Ideal))
    (x2 : (⟨S8192, .i32⟩ : BufTy).Contents (Elt Ideal)) (x4 : (⟨S8192, .f32⟩ : BufTy).Contents (Elt Ideal))
    (x5 x6 : (⟨S8192x32, .i32⟩ : BufTy).Contents (Elt Ideal)) (x7 : (⟨S8192x32, .f32⟩ : BufTy).Contents (Elt Ideal))
    (x11 x12 : (⟨S100, .f32⟩ : BufTy).Contents (Elt Ideal)) (x13 : (⟨S616x172, .f32⟩ : BufTy).Contents (Elt Ideal))
    (x14 : (⟨S172, .f32⟩ : BufTy).Contents (Elt Ideal)) :
    val_main_v46 (F := Ideal) x0 x1 x2 x4 x5 x6 x7 x11 x12 x13 x14
      = Cert.Side.G (val_main_v40 (F := Ideal) x0 x2) (val_main_v6 (F := Ideal) x0 x5) (val_main_v13 (F := Ideal) x1 x6)
          x5 x4 x7 x11 x12 x13 x14 :=
  src_side x0 x1 x2 x4 x5 x6 x7 x11 x12 x13 x14

theorem dst_eq (x0 : (⟨S200000x172, .f32⟩ : BufTy).Contents (Elt Ideal)) (x1 : (⟨S500000x172, .f32⟩ : BufTy).Contents (Elt Ideal))
    (x3 : (⟨S8192, .i32⟩ : BufTy).Contents (Elt Ideal)) (x4 : (⟨S8192, .f32⟩ : BufTy).Contents (Elt Ideal))
    (x8 x9 : (⟨S8192x32, .i32⟩ : BufTy).Contents (Elt Ideal)) (x10 : (⟨S8192x32, .f32⟩ : BufTy).Contents (Elt Ideal))
    (x11 x12 : (⟨S100, .f32⟩ : BufTy).Contents (Elt Ideal)) (x13 : (⟨S616x172, .f32⟩ : BufTy).Contents (Elt Ideal))
    (x14 : (⟨S172, .f32⟩ : BufTy).Contents (Elt Ideal)) :
    val_main_v93 (F := Ideal) x0 x1 x3 x4 x8 x9 x10 x11 x12 x13 x14
      = Cert.Side.G (val_main_v87 (F := Ideal) x0 x3) (val_main_v53 (F := Ideal) x0 x8) (val_main_v60 (F := Ideal) x1 x9)
          x8 x4 x10 x11 x12 x13 x14 :=
  dst_side x0 x1 x3 x4 x8 x9 x10 x11 x12 x13 x14

end Cert.RefSide

end
-- ==== Proof.lean ====
/-
  The certificate: the kernel program and its reference compute the same three arrays over the extended reals.

  Each of the two embeddings (source side, destination side) is `relu (x · W + bias)`, row `b` of `x` being the
  node's own features followed by the means over its 32 neighbour slots of the neighbours' node features, of the
  edge features and of the masked time features. The kernel program gathers the feature rows on the host, cuts
  `W` into its four row ranges there, and runs one grid of 64 row blocks per side, each block computing four
  partial products with the means taken as sums times the word 1/32 and the mask as a 0-or-1 factor; the
  reference concatenates, takes one mean by dividing by the word 32, and makes one 616-long product, masking by a
  select. Both are `Cert.Side.G` of the same arrays: the kernel side by reading each region's write-backs as one
  whole-array function (Region0, Region1 over Body), the host operations as terms of the arguments (HostArrays,
  KernelSpec) and the run with its results named (KernelRun, KernelValue); the reference side by reading its run one
  operation at a time (RefSide). The laws that join them — splitting a sum over 616 indices into four ranges,
  `x / 32 = x · (1/32)`, `x · 0 = 0` and `x · 1 = x` — hold for every extended real, so the precondition is never
  opened. The third result is zeros on both sides. The ideal pass rewrote nothing, so `preserves` asks nothing; the
  two kernel frames are the generated ones, and the reference's frame is its run with the results dropped.
-/
import proofs.«118674_j90735479095614_2_alg».proof.Defs
import proofs.«118674_j90735479095614_2_alg».proof.Proof.Gen.Kernel
import proofs.«118674_j90735479095614_2_alg».proof.Proof.Gen.Kernel.Frame
import proofs.«118674_j90735479095614_2_alg».proof.Proof.Gen.KernelIdeal
import proofs.«118674_j90735479095614_2_alg».proof.Proof.Gen.KernelIdeal.Frame
import proofs.«118674_j90735479095614_2_alg».proof.Proof.Gen.ReferenceIdeal
import proofs.«118674_j90735479095614_2_alg».proof.Proof.Gen.Pre_finite_inputs
import proofs.«118674_j90735479095614_2_alg».proof.Proof.Gen.ReferenceIdeal.Run
import proofs.«118674_j90735479095614_2_alg».proof.Proof.Gen.ReferenceIdeal.Read
import proofs.«118674_j90735479095614_2_alg».proof.Proof.KernelValue
import proofs.«118674_j90735479095614_2_alg».proof.Proof.RefSide
import Idealize.ShloMosaic.Adequacy
import Idealize.ShloMosaic.Init

noncomputable section

open Idealize.ShloMosaic Idealize.SL.Sem

/-! ## The gathered feature arrays are the same in both programs

The reference gathers rows of the f32 tables; the kernel program gathers rows of the tables cast to the narrower
format, which over the extended reals are the same tables; the ids are normalised by the same operations. -/

namespace Cert.Bridge

/-- The source side's neighbour node features. -/
theorem nf_src (x : (⟨Cert.ReferenceIdeal.S200000x172, .f32⟩ : BufTy).Contents (Elt Ideal)) (ids : (⟨Cert.ReferenceIdeal.S8192x32, .i32⟩ : BufTy).Contents (Elt Ideal)) :
    Cert.ReferenceIdeal.Read.val_main_v6 (F := Ideal) x ids
      = Host.gather Cert.KernelIdeal.gather_S200000x172_S8192x32x1_S8192x32x172_2_0_n_n_0_2_1172 (truncf (F := Ideal) (φ := .f32) .bf16 x Cert.KernelIdeal.Gen.bitsLt_bf16_f32)
          (Cert.KernelIdeal.HostArrays.starts3 ids 200000#32) := rfl
/-- The source side's edge features. -/
theorem ef_src (x : (⟨Cert.ReferenceIdeal.S500000x172, .f32⟩ : BufTy).Contents (Elt Ideal)) (ids : (⟨Cert.ReferenceIdeal.S8192x32, .i32⟩ : BufTy).Contents (Elt Ideal)) :
    Cert.ReferenceIdeal.Read.val_main_v13 (F := Ideal) x ids
      = Host.gather Cert.KernelIdeal.gather_S500000x172_S8192x32x1_S8192x32x172_2_0_n_n_0_2_1172 (truncf (F := Ideal) (φ := .f32) .bf16 x Cert.KernelIdeal.Gen.bitsLt_bf16_f32)
          (Cert.KernelIdeal.HostArrays.starts3 ids 500000#32) := rfl
/-- The source nodes' own features. -/
theorem cur_src (x : (⟨Cert.ReferenceIdeal.S200000x172, .f32⟩ : BufTy).Contents (Elt Ideal)) (ids : (⟨Cert.ReferenceIdeal.S8192, .i32⟩ : BufTy).Contents (Elt Ideal)) :
    Cert.ReferenceIdeal.Read.val_main_v40 (F := Ideal) x ids
      = Host.gather Cert.KernelIdeal.gather_S200000x172_S8192x1_S8192x172_1_0_n_n_0_1_1172 (truncf (F := Ideal) (φ := .f32) .bf16 x Cert.KernelIdeal.Gen.bitsLt_bf16_f32)
          (Cert.KernelIdeal.HostArrays.starts2 ids) := rfl
/-- The destination side's neighbour node features. -/
theorem nf_dst (x : (⟨Cert.ReferenceIdeal.S200000x172, .f32⟩ : BufTy).Contents (Elt Ideal)) (ids : (⟨Cert.ReferenceIdeal.S8192x32, .i32⟩ : BufTy).Contents (Elt Ideal)) :
    Cert.ReferenceIdeal.Read.val_main_v53 (F := Ideal) x ids
      = Host.gather Cert.KernelIdeal.gather_S200000x172_S8192x32x1_S8192x32x172_2_0_n_n_0_2_1172 (truncf (F := Ideal) (φ := .f32) .bf16 x Cert.KernelIdeal.Gen.bitsLt_bf16_f32)
          (Cert.KernelIdeal.HostArrays.starts3 ids 200000#32) := rfl
/-- The destination side's edge features. -/
theorem ef_dst (x : (⟨Cert.ReferenceIdeal.S500000x172, .f32⟩ : BufTy).Contents (Elt Ideal)) (ids : (⟨Cert.ReferenceIdeal.S8192x32, .i32⟩ : BufTy).Contents (Elt Ideal)) :
    Cert.ReferenceIdeal.Read.val_main_v60 (F := Ideal) x ids
      = Host.gather Cert.KernelIdeal.gather_S500000x172_S8192x32x1_S8192x32x172_2_0_n_n_0_2_1172 (truncf (F := Ideal) (φ := .f32) .bf16 x Cert.KernelIdeal.Gen.bitsLt_bf16_f32)
          (Cert.KernelIdeal.HostArrays.starts3 ids 500000#32) := rfl
/-- The destination nodes' own features. -/
theorem cur_dst (x : (⟨Cert.ReferenceIdeal.S200000x172, .f32⟩ : BufTy).Contents (Elt Ideal)) (ids : (⟨Cert.ReferenceIdeal.S8192, .i32⟩ : BufTy).Contents (Elt Ideal)) :
    Cert.ReferenceIdeal.Read.val_main_v87 (F := Ideal) x ids
      = Host.gather Cert.KernelIdeal.gather_S200000x172_S8192x1_S8192x172_1_0_n_n_0_1_1172 (truncf (F := Ideal) (φ := .f32) .bf16 x Cert.KernelIdeal.Gen.bitsLt_bf16_f32)
          (Cert.KernelIdeal.HostArrays.starts2 ids) := rfl

end Cert.Bridge

namespace Cert.Proof

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- From memories agreeing on the arguments both programs end with the two sides' embeddings and zeros. -/
theorem algebraic : Cert.algebraic_KernelIdeal_ReferenceIdeal := by
  intro m ρ m' ρ' _ hagree
  refine ⟨fun c => Cert.KernelIdeal.Results.srcVal m c, fun c => Cert.KernelIdeal.Results.dstVal m c,
    fun _ => Cert.KernelIdeal.Results.zeroVal, Cert.KernelIdeal.Results.run m ρ, ?_⟩
  refine (θ_run Cert.ReferenceIdeal.defs _ _).mono (fun r h c => ?_) (Cert.ReferenceIdeal.Value.run (F := Ideal) m' ρ')
  obtain ⟨h46, h93, h94, hargs⟩ := h c
  obtain ⟨a0, a1, a2, a3, a4, a5, a6, a7, a8, a9, a10, a11, a12, a13, a14⟩ := hagree c
  refine ⟨h46.trans ?_, h93.trans ?_, h94.trans ?_, hargs⟩
  · rw [Cert.ReferenceIdeal.Read.val_main_v46_eq, Cert.RefSide.src_eq, Cert.Bridge.cur_src, Cert.Bridge.nf_src,
      Cert.Bridge.ef_src, a0, a1, a2, a4, a5, a6, a7, a11, a12, a13, a14]
    rfl
  · rw [Cert.ReferenceIdeal.Read.val_main_v93_eq, Cert.RefSide.dst_eq, Cert.Bridge.cur_dst, Cert.Bridge.nf_dst,
      Cert.Bridge.ef_dst, a0, a1, a3, a4, a8, a9, a10, a11, a12, a13, a14]
    rfl
  · rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
